-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x1024 : Shape := ⟨3, ![8, 2048, 1024]⟩
abbrev S8x2048x2048 : Shape := ⟨3, ![8, 2048, 2048]⟩
abbrev S1024x192 : Shape := ⟨2, ![1024, 192]⟩
abbrev S192 : Shape := ⟨1, ![192]⟩
abbrev S_ : Shape := ⟨0, ![]⟩

class Facts : Prop where
  bcast_S_S8x2048x1024 : S_.BroadcastsInDim S8x2048x1024 (![] : Fin 0 → Fin S8x2048x1024.rank)
  reducesTo_S8x2048x1024_S_d0_1_2 : S8x2048x1024.ReducesTo [0, 1, 2] S_
  h_S_ : 0 < S_.numel
  bcast_S_S1024x192 : S_.BroadcastsInDim S1024x192 (![] : Fin 0 → Fin S1024x192.rank)
  reducesTo_S1024x192_S_d0_1 : S1024x192.ReducesTo [0, 1] S_
  bcast_S_S192 : S_.BroadcastsInDim S192 (![] : Fin 0 → Fin S192.rank)
  reducesTo_S192_S_d0 : S192.ReducesTo [0] S_

variable [Facts]

def fn {F : FTy → Type} [FloatOps F] (main_arg0 : FVec F S8x2048x1024 .f32) (main_arg1 : IVec S8x2048x2048 32) (main_arg2 : FVec F S1024x192 .f32) (main_arg3 : FVec F S192 .f32) : IVec S_ 1 :=
  let main_v0 : FVec F S8x2048x1024 .f32 := Host.absf main_arg0
  let main_cst : FVec F S_ .f32 := constant S_ .f32 0x7F800000#32
  let main_v1 : FVec F S8x2048x1024 .f32 := broadcastInDim S8x2048x1024 ![] bcast_S_S8x2048x1024 main_cst
  let main_v2 : IVec S8x2048x1024 1 := cmpf .olt main_v0 main_v1
  let main_c : IVec S_ 1 := constantI S_ 1 1#1
  let main_v3 : IVec S_ 1 := (fun x v => Host.reduce IntOp.andi x v reducesTo_S8x2048x1024_S_d0_1_2 h_S_) main_v2 main_c
  let main_v4 : FVec F S1024x192 .f32 := Host.absf main_arg2
  let main_cst_0 : FVec F S_ .f32 := constant S_ .f32 0x7F800000#32
  let main_v5 : FVec F S1024x192 .f32 := broadcastInDim S1024x192 ![] bcast_S_S1024x192 main_cst_0
  let main_v6 : IVec S1024x192 1 := cmpf .olt main_v4 main_v5
  let main_c_1 : IVec S_ 1 := constantI S_ 1 1#1
  let main_v7 : IVec S_ 1 := (fun x v => Host.reduce IntOp.andi x v reducesTo_S1024x192_S_d0_1 h_S_) main_v6 main_c_1
  let main_v8 : IVec S_ 1 := andi main_v3 main_v7
  let main_v9 : FVec F S192 .f32 := Host.absf main_arg3
  let main_cst_2 : FVec F S_ .f32 := constant S_ .f32 0x7F800000#32
  let main_v10 : FVec F S192 .f32 := broadcastInDim S192 ![] bcast_S_S192 main_cst_2
  let main_v11 : IVec S192 1 := cmpf .olt main_v9 main_v10
  let main_c_3 : IVec S_ 1 := constantI S_ 1 1#1
  let main_v12 : IVec S_ 1 := (fun x v => Host.reduce IntOp.andi x v reducesTo_S192_S_d0 h_S_) main_v11 main_c_3
  let main_v13 : IVec S_ 1 := andi main_v8 main_v12
  main_v13
-- ==== Kernel.lean ====
abbrev S8x2048x1024 : Shape := ⟨3, ![8, 2048, 1024]⟩
abbrev S8x2048x2048 : Shape := ⟨3, ![8, 2048, 2048]⟩
abbrev S1024x192 : Shape := ⟨2, ![1024, 192]⟩
abbrev S192 : Shape := ⟨1, ![192]⟩
abbrev S16384x1024 : Shape := ⟨2, ![16384, 1024]⟩
abbrev S16384x64 : Shape := ⟨2, ![16384, 64]⟩
abbrev S2048x1024 : Shape := ⟨2, ![2048, 1024]⟩
abbrev S2048x64 : Shape := ⟨2, ![2048, 64]⟩
abbrev S2048x192 : Shape := ⟨2, ![2048, 192]⟩
abbrev S1x192 : Shape := ⟨2, ![1, 192]⟩
abbrev S8x2048x64 : Shape := ⟨3, ![8, 2048, 64]⟩
abbrev S1x512x64 : Shape := ⟨3, ![1, 512, 64]⟩
abbrev S1x2048x64 : Shape := ⟨3, ![1, 2048, 64]⟩
abbrev S1x512x2048 : Shape := ⟨3, ![1, 512, 2048]⟩
abbrev S1x512 : Shape := ⟨2, ![1, 512]⟩
abbrev S1x512x1 : Shape := ⟨3, ![1, 512, 1]⟩

abbrev nBuf : Space → Nat
  | .hbm => 12
  | .vmem => 20
  | .smem => 0
  | _ => 0

abbrev bufTy : (tb : Table) → Fin (tcTables nBuf tb) → BufTy
  | .hbm, ⟨0, _⟩ => ⟨S8x2048x1024, .f32⟩
  | .hbm, ⟨1, _⟩ => ⟨S8x2048x2048, .i32⟩
  | .hbm, ⟨2, _⟩ => ⟨S1024x192, .f32⟩
  | .hbm, ⟨3, _⟩ => ⟨S192, .f32⟩
  | .hbm, ⟨4, _⟩ => ⟨S16384x1024, .f32⟩
  | .hbm, ⟨5, _⟩ => ⟨S16384x64, .f32⟩
  | .hbm, ⟨6, _⟩ => ⟨S16384x64, .f32⟩
  | .hbm, ⟨7, _⟩ => ⟨S16384x64, .f32⟩
  | .hbm, ⟨8, _⟩ => ⟨S8x2048x64, .f32⟩
  | .hbm, ⟨9, _⟩ => ⟨S8x2048x64, .f32⟩
  | .hbm, ⟨10, _⟩ => ⟨S8x2048x64, .f32⟩
  | .hbm, ⟨11, _⟩ => ⟨S8x2048x64, .f32⟩
  | .local _ .vmem, ⟨0, _⟩ => ⟨S2048x1024, .f32⟩
  | .local _ .vmem, ⟨1, _⟩ => ⟨S2048x1024, .f32⟩
  | .local _ .vmem, ⟨2, _⟩ => ⟨S1024x192, .f32⟩
  | .local _ .vmem, ⟨3, _⟩ => ⟨S192, .f32⟩
  | .local _ .vmem, ⟨4, _⟩ => ⟨S2048x64, .f32⟩
  | .local _ .vmem, ⟨5, _⟩ => ⟨S2048x64, .f32⟩
  | .local _ .vmem, ⟨6, _⟩ => ⟨S2048x64, .f32⟩
  | .local _ .vmem, ⟨7, _⟩ => ⟨S2048x64, .f32⟩
  | .local _ .vmem, ⟨8, _⟩ => ⟨S2048x64, .f32⟩
  | .local _ .vmem, ⟨9, _⟩ => ⟨S2048x64, .f32⟩
  | .local _ .vmem, ⟨10, _⟩ => ⟨S1x512x64, .f32⟩
  | .local _ .vmem, ⟨11, _⟩ => ⟨S1x512x64, .f32⟩
  | .local _ .vmem, ⟨12, _⟩ => ⟨S1x2048x64, .f32⟩
  | .local _ .vmem, ⟨13, _⟩ => ⟨S1x2048x64, .f32⟩
  | .local _ .vmem, ⟨14, _⟩ => ⟨S1x2048x64, .f32⟩
  | .local _ .vmem, ⟨15, _⟩ => ⟨S1x2048x64, .f32⟩
  | .local _ .vmem, ⟨16, _⟩ => ⟨S1x512x2048, .i32⟩
  | .local _ .vmem, ⟨17, _⟩ => ⟨S1x512x2048, .i32⟩
  | .local _ .vmem, ⟨18, _⟩ => ⟨S1x512x64, .f32⟩
  | .local _ .vmem, ⟨19, _⟩ => ⟨S1x512x64, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨2, ![8, 4], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x512x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x2048x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x2048x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x512x2048 .i32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1x512x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

class Facts₀ : Prop where
  shapeCasts_S8x2048x1024_S16384x1024 : S8x2048x1024.ShapeCasts S16384x1024
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  bitsLt_bf16_f32 : FTy.bits .bf16 < FTy.bits .f32
  inb_S1024x192_S1024x192_0_0 : ∀ a, (![0, 0] : Fin 2 → Nat) a + S1024x192.size a ≤ S1024x192.size a
  h_S1024x192 : 0 < S1024x192.numel
  inb_S192_S192_0 : ∀ a, (![0] : Fin 1 → Nat) a + S192.size a ≤ S192.size a
  h_S192 : 0 < S192.numel
  shapeCasts_S192_S1x192 : S192.ShapeCasts S1x192
  broadcasts_S1x192_S2048x192 : S1x192.Broadcasts S2048x192
  slices_S2048x192_o0_0_S2048x64 : S2048x192.Slices ![0, 0] S2048x64
  inb_S2048x64_S2048x64_0_0 : ∀ a, (![0, 0] : Fin 2 → Nat) a + S2048x64.size a ≤ S2048x64.size a
  h_S2048x64 : 0 < S2048x64.numel
  slices_S2048x192_o0_64_S2048x64 : S2048x192.Slices ![0, 64] S2048x64
  slices_S2048x192_o0_128_S2048x64 : S2048x192.Slices ![0, 128] S2048x64
  shapeCasts_S16384x64_S8x2048x64 : S16384x64.ShapeCasts S8x2048x64
  inb_S1x512x64_S1x512x64_0_0_0 : ∀ a, (![0, 0, 0] : Fin 3 → Nat) a + S1x512x64.size a ≤ S1x512x64.size a
  h_S1x512x64 : 0 < S1x512x64.numel
  shapeCasts_S1x512x64_S1x512x64 : S1x512x64.ShapeCasts S1x512x64
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S1x2048x64 : S1x2048x64.ShapeCasts S1x2048x64
  inb_S1x512x2048_S1x512x2048_0_0_0 : ∀ a, (![0, 0, 0] : Fin 3 → Nat) a + S1x512x2048.size a ≤ S1x512x2048.size a
  h_S1x512x2048 : 0 < S1x512x2048.numel
  reduces_S1x512x2048_S1x512 : S1x512x2048.Reduces [2] S1x512
  shapeCasts_S1x512_S1x512x1 : S1x512.ShapeCasts S1x512x1
  broadcasts_S1x512x1_S1x512x2048 : S1x512x1.Broadcasts S1x512x2048
  broadcasts_S1x512x1_S1x512x64 : S1x512x1.Broadcasts S1x512x64
  dot_S2048x1024_S1024x192_S2048x192_1_0_0_1_n_n_wf : DotDims.WF S2048x1024 S1024x192 S2048x192 [1] [0] [0] [1] [] []
  dot_S1x512x64_S1x2048x64_S1x512x2048_2_2_1_1_0_0_wf : DotDims.WF S1x512x64 S1x2048x64 S1x512x2048 [2] [2] [1] [1] [0] [0]
  dot_S1x512x2048_S1x2048x64_S1x512x64_2_1_1_2_0_0_wf : DotDims.WF S1x512x2048 S1x2048x64 S1x512x64 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S16384x1024.size a
  hwx0_0 : ∀ i : grid0.Coords, EltTy.bits .f32 = 32 ∨ (Rect.block (s := S16384x1024) S2048x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x192.size a ≤ S1024x192.size a
  hwx0_1 : ∀ i : grid0.Coords, EltTy.bits .f32 = 32 ∨ (Rect.block (s := S1024x192) S1024x192.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S192.size a ≤ S192.size a
  hwx0_2 : ∀ i : grid0.Coords, EltTy.bits .f32 = 32 ∨ (Rect.block (s := S192) S192.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x64.size a ≤ S16384x64.size a
  hwx0_3 : ∀ i : grid0.Coords, EltTy.bits .f32 = 32 ∨ (Rect.block (s := S16384x64) S2048x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x64.size a ≤ S16384x64.size a
  hwx0_4 : ∀ i : grid0.Coords, EltTy.bits .f32 = 32 ∨ (Rect.block (s := S16384x64) S2048x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2048x64.size a ≤ S16384x64.size a
  hwx0_5 : ∀ i : grid0.Coords, EltTy.bits .f32 = 32 ∨ (Rect.block (s := S16384x64) S2048x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x64.size a ≤ S8x2048x64.size a
  hwx1_0 : ∀ i : grid1.Coords, EltTy.bits .f32 = 32 ∨ (Rect.block (s := S8x2048x64) S1x512x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2048x64.size a ≤ S8x2048x64.size a
  hwx1_1 : ∀ i : grid1.Coords, EltTy.bits .f32 = 32 ∨ (Rect.block (s := S8x2048x64) S1x2048x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048x64.size a ≤ S8x2048x64.size a
  hwx1_2 : ∀ i : grid1.Coords, EltTy.bits .f32 = 32 ∨ (Rect.block (s := S8x2048x64) S1x2048x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x512x2048.size a ≤ S8x2048x2048.size a
  hwx1_3 : ∀ i : grid1.Coords, EltTy.bits .i32 = 32 ∨ (Rect.block (s := S8x2048x2048) S1x512x2048.size (cc1_transform_3 i) (hinb1_3 i)).WholeWords (EltTy.packing .i32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x512x64.size a ≤ S8x2048x64.size a
  hwx1_4 : ∀ i : grid1.Coords, EltTy.bits .f32 = 32 ∨ (Rect.block (s := S8x2048x64) S1x512x64.size (cc1_transform_4 i) (hinb1_4 i)).WholeWords (EltTy.packing .f32)

variable [Facts₀]

def dot_S2048x1024_S1024x192_S2048x192_1_0_0_1_n_n : DotDims S2048x1024 S1024x192 S2048x192 where
  lhsContracting := [1]
  rhsContracting := [0]
  lhsNonContracting := [0]
  rhsNonContracting := [1]
  lhsBatch := []
  rhsBatch := []
  wf := dot_S2048x1024_S1024x192_S2048x192_1_0_0_1_n_n_wf
def dot_S1x512x64_S1x2048x64_S1x512x2048_2_2_1_1_0_0 : DotDims S1x512x64 S1x2048x64 S1x512x2048 where
  lhsContracting := [2]
  rhsContracting := [2]
  lhsNonContracting := [1]
  rhsNonContracting := [1]
  lhsBatch := [0]
  rhsBatch := [0]
  wf := dot_S1x512x64_S1x2048x64_S1x512x2048_2_2_1_1_0_0_wf
def dot_S1x512x2048_S1x2048x64_S1x512x64_2_1_1_2_0_0 : DotDims S1x512x2048 S1x2048x64 S1x512x64 where
  lhsContracting := [2]
  rhsContracting := [1]
  lhsNonContracting := [1]
  rhsNonContracting := [2]
  lhsBatch := [0]
  rhsBatch := [0]
  wf := dot_S1x512x2048_S1x2048x64_S1x512x64_2_1_1_2_0_0_wf

abbrev win0_0 : Pipeline.Window sig grid0 :=
  Pipeline.Window.ofSpec (Memref.whole main_v0) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1024x192.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S192.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1_0) S2048x64.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1_1) S2048x64.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v1_2) S2048x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v2) S1x512x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S1x2048x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v4) S1x2048x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg1) S1x512x2048.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v5) S1x512x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S8x2048x1024 : Shape := ⟨3, ![8, 2048, 1024]⟩
abbrev S8x2048x2048 : Shape := ⟨3, ![8, 2048, 2048]⟩
abbrev S1024x192 : Shape := ⟨2, ![1024, 192]⟩
abbrev S192 : Shape := ⟨1, ![192]⟩
abbrev S8x2048x192 : Shape := ⟨3, ![8, 2048, 192]⟩
abbrev S1x1x192 : Shape := ⟨3, ![1, 1, 192]⟩
abbrev S8x2048x64 : Shape := ⟨3, ![8, 2048, 64]⟩
abbrev S_ : Shape := ⟨0, ![]⟩
abbrev S8x2048 : Shape := ⟨2, ![8, 2048]⟩
abbrev S8x2048x1 : Shape := ⟨3, ![8, 2048, 1]⟩

abbrev nBuf : Space → Nat
  | .hbm => 40
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x2048x2048, .i32⟩
  | .hbm, ⟨2, _⟩ => ⟨S1024x192, .f32⟩
  | .hbm, ⟨3, _⟩ => ⟨S192, .f32⟩
  | .hbm, ⟨4, _⟩ => ⟨S8x2048x192, .f32⟩
  | .hbm, ⟨5, _⟩ => ⟨S1x1x192, .f32⟩
  | .hbm, ⟨6, _⟩ => ⟨S8x2048x192, .f32⟩
  | .hbm, ⟨7, _⟩ => ⟨S8x2048x192, .f32⟩
  | .hbm, ⟨8, _⟩ => ⟨S8x2048x64, .f32⟩
  | .hbm, ⟨9, _⟩ => ⟨S8x2048x64, .f32⟩
  | .hbm, ⟨10, _⟩ => ⟨S8x2048x64, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S8x2048x2048, .f32⟩
  | .hbm, ⟨16, _⟩ => ⟨S8x2048x2048, .f32⟩
  | .hbm, ⟨17, _⟩ => ⟨S8x2048x2048, .f32⟩
  | .hbm, ⟨18, _⟩ => ⟨S_, .i32⟩
  | .hbm, ⟨19, _⟩ => ⟨S8x2048x2048, .i32⟩
  | .hbm, ⟨20, _⟩ => ⟨S8x2048x2048, .i1⟩
  | .hbm, ⟨21, _⟩ => ⟨S_, .f32⟩
  | .hbm, ⟨22, _⟩ => ⟨S_, .f32⟩
  | .hbm, ⟨23, _⟩ => ⟨S8x2048x2048, .f32⟩
  | .hbm, ⟨24, _⟩ => ⟨S8x2048x2048, .f32⟩
  | .hbm, ⟨25, _⟩ => ⟨S_, .f32⟩
  | .hbm, ⟨26, _⟩ => ⟨S8x2048, .f32⟩
  | .hbm, ⟨27, _⟩ => ⟨S_, .f32⟩
  | .hbm, ⟨28, _⟩ => ⟨S8x2048, .f32⟩
  | .hbm, ⟨29, _⟩ => ⟨S8x2048, .f32⟩
  | .hbm, ⟨30, _⟩ => ⟨S8x2048x1, .f32⟩
  | .hbm, ⟨31, _⟩ => ⟨S8x2048x2048, .f32⟩
  | .hbm, ⟨32, _⟩ => ⟨S8x2048x2048, .f32⟩
  | .hbm, ⟨33, _⟩ => ⟨S8x2048x2048, .f32⟩
  | .hbm, ⟨34, _⟩ => ⟨S_, .f32⟩
  | .hbm, ⟨35, _⟩ => ⟨S8x2048, .f32⟩
  | .hbm, ⟨36, _⟩ => ⟨S8x2048x1, .f32⟩
  | .hbm, ⟨37, _⟩ => ⟨S8x2048x2048, .f32⟩
  | .hbm, ⟨38, _⟩ => ⟨S8x2048x2048, .f32⟩
  | .hbm, ⟨39, _⟩ => ⟨S8x2048x64, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_c : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_call0_v0 : Ref sig .tc := ⟨.hbm, 22, rfl⟩
abbrev main_call0_v1 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_4 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]

class Facts₀ : Prop where
  bcast_S192_S1x1x192_2 : S192.BroadcastsInDim S1x1x192 (![2] : Fin 1 → Fin S1x1x192.rank)
  bcast_S1x1x192_S8x2048x192_0_1_2 : S1x1x192.BroadcastsInDim S8x2048x192 (![0, 1, 2] : Fin 3 → Fin S8x2048x192.rank)
  slices_S8x2048x192_S8x2048x64_0_0_0 : S8x2048x192.Slices ![0, 0, 0] S8x2048x64
  slices_S8x2048x192_S8x2048x64_0_0_64 : S8x2048x192.Slices ![0, 0, 64] S8x2048x64
  slices_S8x2048x192_S8x2048x64_0_0_128 : S8x2048x192.Slices ![0, 0, 128] S8x2048x64
  bcast_S_S8x2048x2048 : S_.BroadcastsInDim S8x2048x2048 (![] : Fin 0 → Fin S8x2048x2048.rank)
  reducesTo_S8x2048x2048_S8x2048_d2 : S8x2048x2048.ReducesTo [2] S8x2048
  h_S_ : 0 < S_.numel
  bcast_S_S8x2048 : S_.BroadcastsInDim S8x2048 (![] : Fin 0 → Fin S8x2048.rank)
  bcast_S8x2048_S8x2048x1_0_1 : S8x2048.BroadcastsInDim S8x2048x1 (![0, 1] : Fin 2 → Fin S8x2048x1.rank)
  bcast_S8x2048x1_S8x2048x2048_0_1_2 : S8x2048x1.BroadcastsInDim S8x2048x2048 (![0, 1, 2] : Fin 3 → Fin S8x2048x2048.rank)
  dot_S8x2048x1024_S1024x192_S8x2048x192_2_0_01_1_n_n_wf : DotDims.WF S8x2048x1024 S1024x192 S8x2048x192 [2] [0] [0, 1] [1] [] []
  dot_S8x2048x64_S8x2048x64_S8x2048x2048_2_2_1_1_0_0_wf : DotDims.WF S8x2048x64 S8x2048x64 S8x2048x2048 [2] [2] [1] [1] [0] [0]
  dot_S8x2048x2048_S8x2048x64_S8x2048x64_2_1_1_2_0_0_wf : DotDims.WF S8x2048x2048 S8x2048x64 S8x2048x64 [2] [1] [1] [2] [0] [0]

variable [Facts₀]

def dot_S8x2048x1024_S1024x192_S8x2048x192_2_0_01_1_n_n : DotDims S8x2048x1024 S1024x192 S8x2048x192 where
  lhsContracting := [2]
  rhsContracting := [0]
  lhsNonContracting := [0, 1]
  rhsNonContracting := [1]
  lhsBatch := []
  rhsBatch := []
  wf := dot_S8x2048x1024_S1024x192_S8x2048x192_2_0_01_1_n_n_wf
def dot_S8x2048x64_S8x2048x64_S8x2048x2048_2_2_1_1_0_0 : DotDims S8x2048x64 S8x2048x64 S8x2048x2048 where
  lhsContracting := [2]
  rhsContracting := [2]
  lhsNonContracting := [1]
  rhsNonContracting := [1]
  lhsBatch := [0]
  rhsBatch := [0]
  wf := dot_S8x2048x64_S8x2048x64_S8x2048x2048_2_2_1_1_0_0_wf
def dot_S8x2048x2048_S8x2048x64_S8x2048x64_2_1_1_2_0_0 : DotDims S8x2048x2048 S8x2048x64 S8x2048x64 where
  lhsContracting := [2]
  rhsContracting := [1]
  lhsNonContracting := [1]
  rhsNonContracting := [2]
  lhsBatch := [0]
  rhsBatch := [0]
  wf := dot_S8x2048x2048_S8x2048x64_S8x2048x64_2_1_1_2_0_0_wf

class Facts : Prop extends Facts₀ where

variable [Facts]
-- ==== Proof.Spec.lean ====
/-
  The mathematics both programs compute, written once over the literal shapes, at the extended reals.

  One attention head over a batch of 8 sequences of 2048 positions. A position's embedding (1024 numbers) is sent
  by one affine map `x ↦ x·W + b` to 192 numbers: columns 0–63 are its query, 64–127 its key, 128–191 its value.
  The score of query position `p` against key position `kk` is the dot product of query and key times 1/8
  (= 1/√64), set to 0 where the mask entry is 1. A row of scores is turned into weights `exp (score − row maximum)`
  and the output at `(p, d)` is the weighted mean of the value column `d` under those weights.

  The two programs differ in two places only, and this file states both forms:
    * where the factor 1/8 sits: on every query entry before the dot product (`scoreQ`), or on the finished dot
      product (`scoreS`), there spelt as the quotient of 1 by the square root of 64;
    * where the division by the row's sum sits: after the weighted sum of values (`attnLate`), or on every weight
      before it (`attnEarly`); the second form also takes its row maximum once more against −∞ and starts its
      row sum from a literal zero.
-/
import Idealize.ShloMosaic.Lib.ValueIdx
import Idealize.ShloMosaic.PureOps.Ideal.Laws

noncomputable section

open scoped BigOperators

namespace Cert.Attn

open Idealize.ShloMosaic Idealize.ShloMosaic.ValueIdx

/-- The four argument arrays and the result array, as functions of a literal-shape index. -/
abbrev XArr := (⟨3, ![8, 2048, 1024]⟩ : Shape).Idx → EReal
abbrev MArr := (⟨3, ![8, 2048, 2048]⟩ : Shape).Idx → BitVec 32
abbrev WArr := (⟨2, ![1024, 192]⟩ : Shape).Idx → EReal
abbrev BArr := (⟨1, ![192]⟩ : Shape).Idx → EReal
abbrev OArr := (⟨3, ![8, 2048, 64]⟩ : Shape).Idx → EReal

/-- The affine map at batch `bi`, position `s`, output column `j`: `Σ_e x[bi, s, e] · W[e, j] + b[j]`. -/
def proj (x : XArr) (W : WArr) (b : BArr) (bi : Fin 8) (s : Fin 2048) (j : Fin 192) : EReal :=
  (∑ e : Fin 1024, x (ix3 bi s e) * W (ix2 e j)) + b (ix1 j)

/-- Column `d` of the query, key and value thirds of the 192 projected columns. -/
def colQ (d : Fin 64) : Fin 192 := ⟨d.val, by have := d.isLt; omega⟩
def colK (d : Fin 64) : Fin 192 := ⟨64 + d.val, by have := d.isLt; omega⟩
def colV (d : Fin 64) : Fin 192 := ⟨128 + d.val, by have := d.isLt; omega⟩

/-- A masked score: the literal zero where the mask word equals 1, the score elsewhere. -/
def masked (mk : BitVec 32) (s : EReal) : EReal :=
  Scalar.select (IntOp.cmpi .eq mk 1#32) (Ideal.ofBits .f32 0x00000000#32) s

/-- The score with the factor 1/8 (the word `0x3E000000`) on every query entry. -/
def scoreQ (x : XArr) (mask : MArr) (W : WArr) (b : BArr) (bi : Fin 8) (p kk : Fin 2048) : EReal :=
  masked (mask (ix3 bi p kk))
    (∑ d : Fin 64, (proj x W b bi p (colQ d) * Ideal.ofBits .f32 0x3E000000#32) * proj x W b bi kk (colK d))

/-- The score with the factor on the finished dot product, spelt `1 / √64`. -/
def scoreS (x : XArr) (mask : MArr) (W : WArr) (b : BArr) (bi : Fin 8) (p kk : Fin 2048) : EReal :=
  masked (mask (ix3 bi p kk))
    ((∑ d : Fin 64, proj x W b bi p (colQ d) * proj x W b bi kk (colK d))
      * Ideal.div (Ideal.ofBits .f32 0x3F800000#32) (Ideal.sqrt (Ideal.ofBits .f32 0x42800000#32)))

/-- A row's maximum: the fold of `max` from −∞ (the word `0xFF800000`) over the 2048 key positions. -/
def rowMax (sc : Fin 8 → Fin 2048 → Fin 2048 → EReal) (bi : Fin 8) (p : Fin 2048) : EReal :=
  (Finset.univ : Finset (Fin 2048)).fold max (Ideal.ofBits .f32 0xFF800000#32) (fun kk => sc bi p kk)

/-- The output with the division last: `(Σ_kk exp (s − max) · v[kk, d]) / Σ_kk exp (s − max)`. -/
def attnLate (sc : Fin 8 → Fin 2048 → Fin 2048 → EReal) (v : Fin 8 → Fin 2048 → Fin 64 → EReal) : OArr := fun i =>
  Ideal.div (∑ kk : Fin 2048, Ideal.exp (sc (i 0) (i 1) kk - rowMax sc (i 0) (i 1)) * v (i 0) kk (i 2))
    (∑ kk : Fin 2048, Ideal.exp (sc (i 0) (i 1) kk - rowMax sc (i 0) (i 1)))

/-- The row maximum taken once more against −∞. -/
def rowMax' (sc : Fin 8 → Fin 2048 → Fin 2048 → EReal) (bi : Fin 8) (p : Fin 2048) : EReal :=
  max (Ideal.ofBits .f32 0xFF800000#32) (rowMax sc bi p)

/-- The output with the division first: `Σ_kk (exp (s − max) / (0 + Σ exp (s − max))) · v[kk, d]`. -/
def attnEarly (sc : Fin 8 → Fin 2048 → Fin 2048 → EReal) (v : Fin 8 → Fin 2048 → Fin 64 → EReal) : OArr := fun i =>
  ∑ kk : Fin 2048, Ideal.div (Ideal.exp (sc (i 0) (i 1) kk - rowMax' sc (i 0) (i 1)))
      (Ideal.ofBits .f32 0x00000000#32 + ∑ k2 : Fin 2048, Ideal.exp (sc (i 0) (i 1) k2 - rowMax' sc (i 0) (i 1)))
    * v (i 0) kk (i 2)

/-- The value third of the projection. -/
def valCol (x : XArr) (W : WArr) (b : BArr) (bi : Fin 8) (kk : Fin 2048) (d : Fin 64) : EReal := proj x W b bi kk (colV d)

/-- What the tiled two-stage program computes. -/
def tiled (x : XArr) (mask : MArr) (W : WArr) (b : BArr) : OArr := attnLate (scoreQ x mask W b) (valCol x W b)

/-- What the whole-array program computes. -/
def whole (x : XArr) (mask : MArr) (W : WArr) (b : BArr) : OArr := attnEarly (scoreS x mask W b) (valCol x W b)

end Cert.Attn

end
-- ==== Proof.Bridge.lean ====
/-
  The algebra that identifies the two forms stated in the specification module, for real-valued inputs.

  With real inputs every projected entry is a real, so every sum below is a finite sum of reals and may be
  computed in ℝ, where multiplication distributes over addition; the extended reals are reached only through
  the coercion, which commutes with finite sums, products and differences of reals.
    * The factor 1/8 on every query entry or on the finished dot product: Σ_d (q_d · c) · k_d = (Σ_d q_d · k_d) · c,
      with c = 1/8 = 1/√64.
    * A masked score is the literal zero or the real score, hence a real; the maximum of a nonempty finite row of
      reals folded from −∞ is a real, and taking it once more against −∞ changes nothing.
    * Each weight exp (s − max) is a positive real, so the row total L is a positive real, and
      (Σ_k e_k · v_k) · (1/L) = Σ_k (e_k · (1/L)) · v_k.
-/
import proofs.«152495_j15874199126439_2_alg».proof.Proof.Spec

noncomputable section

open scoped BigOperators

namespace Cert.Attn

open Idealize.ShloMosaic Idealize.ShloMosaic.ValueIdx

/-- The coercion of a finite sum of reals is the sum of the coercions. -/
theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The word `0x3E000000` denotes the real `1/8`. -/
theorem ofBits_eighth : Ideal.ofBits .f32 0x3E000000#32 = ((1 / 8 : ℝ) : EReal) := by
  simp [Ideal.ofBits, Ideal.ieee, -EReal.coe_mul]; norm_num

/-- The word `0x42800000` denotes the real `64`. -/
theorem ofBits_sixtyfour : Ideal.ofBits .f32 0x42800000#32 = ((64 : ℝ) : EReal) := by
  simp [Ideal.ofBits, Ideal.ieee, -EReal.coe_mul]; norm_num

/-- The word `0x3F800000` denotes the real `1`. -/
theorem ofBits_one : Ideal.ofBits .f32 0x3F800000#32 = ((1 : ℝ) : EReal) := by
  simp [Ideal.ofBits, Ideal.ieee, -EReal.coe_mul]; norm_num

/-- The word `0xFF800000` denotes `−∞`. -/
theorem ofBits_negInf : Ideal.ofBits .f32 0xFF800000#32 = (⊥ : EReal) := by
  simp [Ideal.ofBits, Ideal.ieee]

/-- `1 / √64` is the real `1/8`. -/
theorem scale_eq : Ideal.div (Ideal.ofBits .f32 0x3F800000#32) (Ideal.sqrt (Ideal.ofBits .f32 0x42800000#32))
    = ((1 / 8 : ℝ) : EReal) := by
  have h8 : Real.sqrt 64 = 8 := by
    rw [show (64 : ℝ) = 8 ^ 2 by norm_num, Real.sqrt_sq (by norm_num)]
  rw [ofBits_one, ofBits_sixtyfour, Ideal.sqrt_coe, if_neg (by norm_num), h8,
    Ideal.div_coe (by norm_num : (8 : ℝ) ≠ 0), ← EReal.coe_mul, one_mul]

/-- With real inputs every projected entry is a real. -/
theorem proj_real (x : XArr) (W : WArr) (b : BArr)
    (hx : ∀ i, ∃ r : ℝ, x i = (r : EReal)) (hW : ∀ i, ∃ r : ℝ, W i = (r : EReal)) (hb : ∀ i, ∃ r : ℝ, b i = (r : EReal)) :
    ∃ pr : Fin 8 → Fin 2048 → Fin 192 → ℝ, ∀ bi s j, proj x W b bi s j = (pr bi s j : EReal) := by
  choose xr hxr using hx
  choose Wr hWr using hW
  choose br hbr using hb
  refine ⟨fun bi s j => (∑ e : Fin 1024, xr (ix3 bi s e) * Wr (ix2 e j)) + br (ix1 j), fun bi s j => ?_⟩
  unfold proj
  rw [EReal.coe_add, coe_sum, hbr]
  congr 1
  refine Finset.sum_congr rfl fun e _ => ?_
  rw [hxr, hWr, EReal.coe_mul]

/-- A masked real is a real: the literal zero or the score itself. -/
theorem masked_real (mk : BitVec 32) (r : ℝ) : ∃ r' : ℝ, masked mk (r : EReal) = (r' : EReal) := by
  unfold masked
  by_cases h : IntOp.cmpi .eq mk 1#32 = 1#1
  · rw [h, select_one, Ideal.ofBits_zero_f32]
    exact ⟨0, rfl⟩
  · rw [eq_zero_of_ne_one h, select_zero]
    exact ⟨r, rfl⟩

/-- The two placements of the factor `1/8` give the same score: over the reals
    `Σ_d (q_d · c) · k_d = (Σ_d q_d · k_d) · c`. -/
theorem scoreQ_eq_scoreS (x : XArr) (mask : MArr) (W : WArr) (b : BArr) (pr : Fin 8 → Fin 2048 → Fin 192 → ℝ)
    (hpr : ∀ bi s j, proj x W b bi s j = (pr bi s j : EReal)) (bi : Fin 8) (p kk : Fin 2048) :
    scoreQ x mask W b bi p kk = scoreS x mask W b bi p kk := by
  unfold scoreQ scoreS
  congr 1
  rw [scale_eq, ofBits_eighth]
  have hL : (∑ d : Fin 64, (proj x W b bi p (colQ d) * ((1 / 8 : ℝ) : EReal)) * proj x W b bi kk (colK d))
      = ((∑ d : Fin 64, (pr bi p (colQ d) * (1 / 8)) * pr bi kk (colK d) : ℝ) : EReal) := by
    rw [coe_sum]
    refine Finset.sum_congr rfl fun d _ => ?_
    rw [hpr, hpr, EReal.coe_mul, EReal.coe_mul]
  have hR : (∑ d : Fin 64, proj x W b bi p (colQ d) * proj x W b bi kk (colK d))
      = ((∑ d : Fin 64, pr bi p (colQ d) * pr bi kk (colK d) : ℝ) : EReal) := by
    rw [coe_sum]
    refine Finset.sum_congr rfl fun d _ => ?_
    rw [hpr, hpr, EReal.coe_mul]
  rw [hL, hR, ← EReal.coe_mul, Finset.sum_mul]
  congr 1
  refine Finset.sum_congr rfl fun d _ => ?_
  ring

/-- With real projections every masked score is a real. -/
theorem scoreS_real (x : XArr) (mask : MArr) (W : WArr) (b : BArr) (pr : Fin 8 → Fin 2048 → Fin 192 → ℝ)
    (hpr : ∀ bi s j, proj x W b bi s j = (pr bi s j : EReal)) :
    ∃ scr : Fin 8 → Fin 2048 → Fin 2048 → ℝ, ∀ bi p kk, scoreS x mask W b bi p kk = (scr bi p kk : EReal) := by
  have h : ∀ bi p kk, ∃ r : ℝ, scoreS x mask W b bi p kk = (r : EReal) := by
    intro bi p kk
    unfold scoreS
    have hR : (∑ d : Fin 64, proj x W b bi p (colQ d) * proj x W b bi kk (colK d))
        = ((∑ d : Fin 64, pr bi p (colQ d) * pr bi kk (colK d) : ℝ) : EReal) := by
      rw [coe_sum]
      refine Finset.sum_congr rfl fun d _ => ?_
      rw [hpr, hpr, EReal.coe_mul]
    rw [scale_eq, hR, ← EReal.coe_mul]
    exact masked_real _ _
  choose scr hscr using h
  exact ⟨scr, hscr⟩

/-- The fold of `max` from `−∞` over a nonempty finite family of reals is a real: it is at least one
    member, so not `−∞`, and at most the family's real maximum, so not `+∞`. -/
theorem fold_max_real {ι : Type} (s : Finset ι) (hs : s.Nonempty) (f : ι → ℝ) :
    ∃ m : ℝ, s.fold max (⊥ : EReal) (fun i => (f i : EReal)) = (m : EReal) := by
  have hbot : s.fold max (⊥ : EReal) (fun i => (f i : EReal)) ≠ ⊥ := by
    obtain ⟨a, ha⟩ := hs
    have hle : ((f a : ℝ) : EReal) ≤ s.fold max (⊥ : EReal) (fun i => (f i : EReal)) :=
      (Finset.le_fold_max _).2 (Or.inr ⟨a, ha, le_rfl⟩)
    intro h
    rw [h] at hle
    exact absurd (le_bot_iff.1 hle) (EReal.coe_ne_bot _)
  have htop : s.fold max (⊥ : EReal) (fun i => (f i : EReal)) ≠ ⊤ := by
    have hle : s.fold max (⊥ : EReal) (fun i => (f i : EReal)) ≤ ((s.sup' hs f : ℝ) : EReal) :=
      (Finset.fold_max_le _).2 ⟨bot_le, fun i hi => EReal.coe_le_coe_iff.2 (Finset.le_sup' f hi)⟩
    intro h
    rw [h] at hle
    exact absurd (top_le_iff.1 hle) (EReal.coe_ne_top _)
  exact ⟨_, (EReal.coe_toReal htop hbot).symm⟩

/-- The row maximum of a real-valued score is a real. -/
theorem rowMax_real (sc : Fin 8 → Fin 2048 → Fin 2048 → EReal) (scr : Fin 8 → Fin 2048 → Fin 2048 → ℝ)
    (hsc : ∀ bi p kk, sc bi p kk = (scr bi p kk : EReal)) (bi : Fin 8) (p : Fin 2048) :
    ∃ m : ℝ, rowMax sc bi p = (m : EReal) := by
  unfold rowMax
  rw [ofBits_negInf]
  have hf : (fun kk => sc bi p kk) = fun kk => ((scr bi p kk : ℝ) : EReal) := funext fun kk => hsc bi p kk
  rw [hf]
  exact fold_max_real _ ⟨⟨0, by norm_num⟩, Finset.mem_univ _⟩ _

/-- Taking the maximum once more against `−∞` changes nothing. -/
theorem rowMax'_eq (sc : Fin 8 → Fin 2048 → Fin 2048 → EReal) (bi : Fin 8) (p : Fin 2048) :
    rowMax' sc bi p = rowMax sc bi p := by
  unfold rowMax'
  rw [ofBits_negInf]
  exact max_eq_right bot_le

/-- Dividing the weighted sum by the positive real total equals weighting by the divided weights:
    over the reals `(Σ_k e_k · v_k) · (1/L) = Σ_k (e_k · (1/L)) · v_k`. -/
theorem div_late_eq_early {ι : Type} [Fintype ι] (e v : ι → ℝ) (hL : (∑ k, e k) ≠ 0) :
    Ideal.div (∑ k, (e k : EReal) * (v k : EReal)) (∑ k, (e k : EReal))
      = ∑ k, Ideal.div (e k : EReal) (Ideal.ofBits .f32 0x00000000#32 + ∑ k2, (e k2 : EReal)) * (v k : EReal) := by
  have hs : (∑ k, (e k : EReal)) = ((∑ k, e k : ℝ) : EReal) := (coe_sum _ _).symm
  have hn : (∑ k, (e k : EReal) * (v k : EReal)) = ((∑ k, e k * v k : ℝ) : EReal) := by
    rw [coe_sum]
    refine Finset.sum_congr rfl fun k _ => ?_
    rw [EReal.coe_mul]
  have hr : (∑ k, Ideal.div (e k : EReal) ((∑ k2, e k2 : ℝ) : EReal) * (v k : EReal))
      = ((∑ k, (e k * (1 / ∑ k2, e k2)) * v k : ℝ) : EReal) := by
    rw [coe_sum Finset.univ (fun k => (e k * (1 / ∑ k2, e k2)) * v k)]
    refine Finset.sum_congr rfl fun k _ => ?_
    rw [Ideal.div_coe hL, EReal.coe_mul, EReal.coe_mul]
  rw [Ideal.ofBits_zero_f32, zero_add, hs, hn, hr, Ideal.div_coe hL, ← EReal.coe_mul, Finset.sum_mul]
  congr 1
  refine Finset.sum_congr rfl fun k _ => ?_
  ring

/-- For a real-valued score and real values the two placements of the division agree, at one batch `bi`,
    query position `p` and value column `d`. -/
theorem attn_entry (sc : Fin 8 → Fin 2048 → Fin 2048 → EReal) (v : Fin 8 → Fin 2048 → Fin 64 → EReal)
    (scr : Fin 8 → Fin 2048 → Fin 2048 → ℝ) (vr : Fin 8 → Fin 2048 → Fin 64 → ℝ)
    (hsc : ∀ bi p kk, sc bi p kk = (scr bi p kk : EReal)) (hv : ∀ bi kk d, v bi kk d = (vr bi kk d : EReal))
    (bi : Fin 8) (p : Fin 2048) (d : Fin 64) :
    Ideal.div (∑ kk : Fin 2048, Ideal.exp (sc bi p kk - rowMax sc bi p) * v bi kk d)
        (∑ kk : Fin 2048, Ideal.exp (sc bi p kk - rowMax sc bi p))
      = ∑ kk : Fin 2048, Ideal.div (Ideal.exp (sc bi p kk - rowMax' sc bi p))
          (Ideal.ofBits .f32 0x00000000#32 + ∑ k2 : Fin 2048, Ideal.exp (sc bi p k2 - rowMax' sc bi p))
        * v bi kk d := by
  obtain ⟨m, hm⟩ := rowMax_real sc scr hsc bi p
  have he : ∀ kk, Ideal.exp (sc bi p kk - rowMax sc bi p) = ((Real.exp (scr bi p kk - m) : ℝ) : EReal) := by
    intro kk
    rw [hsc, hm, ← EReal.coe_sub, Ideal.exp_coe]
  have hpos : (∑ kk : Fin 2048, Real.exp (scr bi p kk - m)) ≠ 0 := by
    have : 0 < ∑ kk : Fin 2048, Real.exp (scr bi p kk - m) :=
      Finset.sum_pos (fun kk _ => Real.exp_pos _) ⟨⟨0, by norm_num⟩, Finset.mem_univ _⟩
    exact this.ne'
  have h := div_late_eq_early (fun kk : Fin 2048 => Real.exp (scr bi p kk - m)) (fun kk : Fin 2048 => vr bi kk d) hpos
  rw [rowMax'_eq]
  simp only [he, hv]
  exact h

/-- For a real-valued score and real values the two placements of the division give the same array. -/
theorem attnLate_eq_attnEarly (sc : Fin 8 → Fin 2048 → Fin 2048 → EReal) (v : Fin 8 → Fin 2048 → Fin 64 → EReal)
    (scr : Fin 8 → Fin 2048 → Fin 2048 → ℝ) (vr : Fin 8 → Fin 2048 → Fin 64 → ℝ)
    (hsc : ∀ bi p kk, sc bi p kk = (scr bi p kk : EReal)) (hv : ∀ bi kk d, v bi kk d = (vr bi kk d : EReal)) :
    attnLate sc v = attnEarly sc v :=
  funext fun i => attn_entry sc v scr vr hsc hv (i 0) (i 1) (i 2)

/-- With real inputs the tiled two-stage program and the whole-array program compute the same array. -/
theorem tiled_eq_whole (x : XArr) (mask : MArr) (W : WArr) (b : BArr)
    (hx : ∀ i, ∃ r : ℝ, x i = (r : EReal)) (hW : ∀ i, ∃ r : ℝ, W i = (r : EReal)) (hb : ∀ i, ∃ r : ℝ, b i = (r : EReal)) :
    tiled x mask W b = whole x mask W b := by
  obtain ⟨pr, hpr⟩ := proj_real x W b hx hW hb
  have hQS : scoreQ x mask W b = scoreS x mask W b :=
    funext fun bi => funext fun p => funext fun kk => scoreQ_eq_scoreS x mask W b pr hpr bi p kk
  obtain ⟨scr, hscr⟩ := scoreS_real x mask W b pr hpr
  unfold tiled whole
  rw [hQS]
  exact attnLate_eq_attnEarly _ _ scr (fun bi kk d => pr bi kk (colV d)) hscr (fun bi kk d => rfl.trans (hpr bi kk (colV d)))

end Cert.Attn

end
-- ==== Proof.RefRead.lean ====
/-
  The whole-array program, read one operation at a time, is the specification's `whole`.

  Each stage of the program is read at an index given by its coordinates: the affine map, its three column
  thirds, the dot product of query and key, its scaling by 1/√64, the masking, the row maximum (a fold of
  `max` from −∞, taken once more against −∞), the exponential of the difference, the row sum from a literal
  zero, the quotient, and the weighted sum of the value column.
-/
import proofs.«152495_j15874199126439_2_alg».proof.Proof.Gen.ReferenceIdeal.Read
import proofs.«152495_j15874199126439_2_alg».proof.Proof.Spec
import Idealize.ShloMosaic.Lib.ValueIdx
import Idealize.ShloMosaic.Lib.Pipeline.Value
import Idealize.ShloMosaic.PureOps.Ideal.Laws
import Idealize.ShloMosaic.PureOps.Reduce

noncomputable section

open scoped BigOperators

namespace Cert.Attn.Ref

open Idealize.ShloMosaic Idealize.ShloMosaic.ValueIdx Cert.ReferenceIdeal Cert.ReferenceIdeal.Gen Cert.ReferenceIdeal.Read

variable (x : FVec Ideal S8x2048x1024 .f32) (mask : IVec S8x2048x2048 32) (W : FVec Ideal S1024x192 .f32)
  (b : FVec Ideal S192 .f32)

/-! ## The affine map and its three column thirds -/

/-- The left operand's index of the first product, at contraction coordinate `k`. -/
theorem lidx_v0 (bi : Fin 8) (s : Fin 2048) (j : Fin 192) (k : Fin 1024) :
    lidx_main_v0 (ix3 bi s j) k = ix3 bi s k :=
  funext fun a => Fin.ext (by match a with | ⟨0, _⟩ => rfl | ⟨1, _⟩ => rfl | ⟨2, _⟩ => rfl)

/-- The right operand's index of the first product. -/
theorem ridx_v0 (bi : Fin 8) (s : Fin 2048) (j : Fin 192) (k : Fin 1024) :
    ridx_main_v0 (ix3 bi s j) k = ix2 k j :=
  funext fun a => Fin.ext (by match a with | ⟨0, _⟩ => rfl | ⟨1, _⟩ => rfl)

/-- The bias is read at the column, through both broadcasts. -/
theorem idx_v1_v2 (bi : Fin 8) (s : Fin 2048) (j : Fin 192) :
    idx_main_v1 (idx_main_v2 (ix3 bi s j)) = ix1 j :=
  funext fun a => Fin.ext (by match a with | ⟨0, _⟩ => rfl)

/-- The sum of product and bias is the affine map. -/
theorem v3_eq (bi : Fin 8) (s : Fin 2048) (j : Fin 192) :
    val_main_v3 (F := Ideal) x W b (ix3 bi s j) = Cert.Attn.proj x W b bi s j := by
  rw [val_main_v3_apply, val_main_v0_apply, val_main_v2_apply, val_main_v1_apply, idx_v1_v2]
  simp only [lidx_v0, ridx_v0]
  rfl

/-- The first slice starts at column 0. -/
theorem idx_v4 (bi : Fin 8) (s : Fin 2048) (d : Fin 64) : idx_main_v4 (ix3 bi s d) = ix3 bi s (colQ d) :=
  funext fun a => Fin.ext (by match a with | ⟨0, _⟩ => rfl | ⟨1, _⟩ => rfl | ⟨2, _⟩ => rfl)

/-- The second slice starts at column 64. -/
theorem idx_v5 (bi : Fin 8) (s : Fin 2048) (d : Fin 64) : idx_main_v5 (ix3 bi s d) = ix3 bi s (colK d) :=
  funext fun a => Fin.ext (by match a with | ⟨0, _⟩ => rfl | ⟨1, _⟩ => rfl | ⟨2, _⟩ => rfl)

/-- The third slice starts at column 128. -/
theorem idx_v6 (bi : Fin 8) (s : Fin 2048) (d : Fin 64) : idx_main_v6 (ix3 bi s d) = ix3 bi s (colV d) :=
  funext fun a => Fin.ext (by match a with | ⟨0, _⟩ => rfl | ⟨1, _⟩ => rfl | ⟨2, _⟩ => rfl)

/-- The query third. -/
theorem v4_eq (bi : Fin 8) (s : Fin 2048) (d : Fin 64) :
    val_main_v4 (F := Ideal) x W b (ix3 bi s d) = Cert.Attn.proj x W b bi s (colQ d) := by
  rw [val_main_v4_apply, idx_v4, v3_eq]

/-- The key third. -/
theorem v5_eq (bi : Fin 8) (s : Fin 2048) (d : Fin 64) :
    val_main_v5 (F := Ideal) x W b (ix3 bi s d) = Cert.Attn.proj x W b bi s (colK d) := by
  rw [val_main_v5_apply, idx_v5, v3_eq]

/-- The value third. -/
theorem v6_eq (bi : Fin 8) (s : Fin 2048) (d : Fin 64) :
    val_main_v6 (F := Ideal) x W b (ix3 bi s d) = Cert.Attn.valCol x W b bi s d := by
  rw [val_main_v6_apply, idx_v6, v3_eq]
  rfl

/-! ## The masked score -/

/-- The query's index in the dot product of query and key. -/
theorem lidx_v9 (bi : Fin 8) (p kk : Fin 2048) (d : Fin 64) : lidx_main_v9 (ix3 bi p kk) d = ix3 bi p d :=
  funext fun a => Fin.ext (by match a with | ⟨0, _⟩ => rfl | ⟨1, _⟩ => rfl | ⟨2, _⟩ => rfl)

/-- The key's index in the dot product of query and key. -/
theorem ridx_v9 (bi : Fin 8) (p kk : Fin 2048) (d : Fin 64) : ridx_main_v9 (ix3 bi p kk) d = ix3 bi kk d :=
  funext fun a => Fin.ext (by match a with | ⟨0, _⟩ => rfl | ⟨1, _⟩ => rfl | ⟨2, _⟩ => rfl)

/-- The dot product of query and key. -/
theorem v9_eq (bi : Fin 8) (p kk : Fin 2048) :
    val_main_v9 (F := Ideal) x W b (ix3 bi p kk)
      = ∑ d : Fin 64, Cert.Attn.proj x W b bi p (colQ d) * Cert.Attn.proj x W b bi kk (colK d) := by
  rw [val_main_v9_apply]
  refine Finset.sum_congr rfl fun d _ => ?_
  rw [lidx_v9, ridx_v9, v4_eq, v5_eq]

/-- The scaled dot product: the factor is the quotient of 1 by the square root of 64. -/
theorem v11_eq (bi : Fin 8) (p kk : Fin 2048) :
    val_main_v11 (F := Ideal) x W b (ix3 bi p kk)
      = (∑ d : Fin 64, Cert.Attn.proj x W b bi p (colQ d) * Cert.Attn.proj x W b bi kk (colK d))
        * Ideal.div (Ideal.ofBits .f32 0x3F800000#32) (Ideal.sqrt (Ideal.ofBits .f32 0x42800000#32)) := by
  rw [val_main_v11_apply, v9_eq, val_main_v10_apply, val_main_v8_apply, val_main_v7_apply, val_main_cst_apply,
    val_main_cst_0_apply]
  rfl

/-- The masked score. -/
theorem v14_eq (bi : Fin 8) (p kk : Fin 2048) :
    val_main_v14 (F := Ideal) x mask W b (ix3 bi p kk) = Cert.Attn.scoreS x mask W b bi p kk := by
  rw [val_main_v14_apply, v11_eq, val_main_v13_apply, val_main_v12_apply, val_main_c_apply, val_main_call0_v1_apply,
    val_main_call0_v0_apply, val_main_cst_1_apply]
  rfl

/-! ## The row maximum -/

/-- A row's index with key position `k` put back on the dropped axis. -/
theorem lift_ix3 (h : S8x2048x2048.Reduces [2] S8x2048) (bi : Fin 8) (p : Fin 2048) (k : Fin (S8x2048x2048.size 2)) :
    h.lift (ix2 bi p) k = ix3 bi p (⟨k.val, k.isLt⟩ : Fin 2048) := by
  funext c; apply Fin.ext
  fin_cases c <;> rfl

/-- The reduce with a maximum body over the key positions is the fold of `max` from −∞ over them. -/
theorem v15_eq (bi : Fin 8) (p : Fin 2048) :
    val_main_v15 (F := Ideal) x mask W b (ix2 bi p) = Cert.Attn.rowMax (Cert.Attn.scoreS x mask W b) bi p := by
  have h : S8x2048x2048.Reduces [2] S8x2048 := by decide
  unfold val_main_v15
  rw [Host.reduce_eq_fold_single FloatOps.maximumf _ _ reducesTo_S8x2048x2048_S8x2048_d2 h h_S_]
  have hf : (val_main_v14 (F := Ideal) x mask W b ∘ h.lift (ix2 bi p))
      = fun kk : Fin 2048 => Cert.Attn.scoreS x mask W b bi p kk :=
    funext fun k => by
      show val_main_v14 (F := Ideal) x mask W b (h.lift (ix2 bi p) k) = _
      rw [lift_ix3, v14_eq]
      rfl
  rw [hf]
  rfl

/-- The row maximum taken once more against −∞. -/
theorem v17_eq (bi : Fin 8) (p : Fin 2048) :
    val_main_v17 (F := Ideal) x mask W b (ix2 bi p) = Cert.Attn.rowMax' (Cert.Attn.scoreS x mask W b) bi p := by
  rw [val_main_v17_apply, v15_eq, val_main_v16_apply, val_main_cst_3_apply]
  rfl

/-- The row maximum is read at the row, through both broadcasts. -/
theorem idx_v18_v19 (bi : Fin 8) (p kk : Fin 2048) : idx_main_v18 (idx_main_v19 (ix3 bi p kk)) = ix2 bi p :=
  funext fun a => Fin.ext (by match a with | ⟨0, _⟩ => rfl | ⟨1, _⟩ => rfl)

/-- The row maximum, broadcast along the key positions. -/
theorem v19_eq (bi : Fin 8) (p kk : Fin 2048) :
    val_main_v19 (F := Ideal) x mask W b (ix3 bi p kk) = Cert.Attn.rowMax' (Cert.Attn.scoreS x mask W b) bi p := by
  rw [val_main_v19_apply, val_main_v18_apply, idx_v18_v19, v17_eq]

/-! ## The weights -/

/-- The exponential of the score less the row maximum. -/
theorem v21_eq (bi : Fin 8) (p kk : Fin 2048) :
    val_main_v21 (F := Ideal) x mask W b (ix3 bi p kk)
      = Ideal.exp (Cert.Attn.scoreS x mask W b bi p kk - Cert.Attn.rowMax' (Cert.Attn.scoreS x mask W b) bi p) := by
  rw [val_main_v21_apply, val_main_v20_apply, v14_eq, v19_eq]
  rfl

/-- The row sum's operand index at key position `k`. -/
theorem idx_v22 (bi : Fin 8) (p k : Fin 2048) : idx_main_v22 (ix2 bi p) k = ix3 bi p k :=
  funext fun a => Fin.ext (by match a with | ⟨0, _⟩ => rfl | ⟨1, _⟩ => rfl | ⟨2, _⟩ => rfl)

/-- The row sum of the exponentials, from a literal zero. -/
theorem v22_eq (bi : Fin 8) (p : Fin 2048) :
    val_main_v22 (F := Ideal) x mask W b (ix2 bi p)
      = Ideal.ofBits .f32 0x00000000#32 + ∑ k2 : Fin 2048,
          Ideal.exp (Cert.Attn.scoreS x mask W b bi p k2 - Cert.Attn.rowMax' (Cert.Attn.scoreS x mask W b) bi p) := by
  rw [val_main_v22_apply, val_main_cst_4_apply]
  refine congrArg (_ + ·) (Finset.sum_congr rfl fun k _ => ?_)
  rw [idx_v22, v21_eq]

/-- The row sum is read at the row, through both broadcasts. -/
theorem idx_v23_v24 (bi : Fin 8) (p kk : Fin 2048) : idx_main_v23 (idx_main_v24 (ix3 bi p kk)) = ix2 bi p :=
  funext fun a => Fin.ext (by match a with | ⟨0, _⟩ => rfl | ⟨1, _⟩ => rfl)

/-- A weight: the exponential divided by its row's sum. -/
theorem v25_eq (bi : Fin 8) (p kk : Fin 2048) :
    val_main_v25 (F := Ideal) x mask W b (ix3 bi p kk)
      = Ideal.div (Ideal.exp (Cert.Attn.scoreS x mask W b bi p kk - Cert.Attn.rowMax' (Cert.Attn.scoreS x mask W b) bi p))
          (Ideal.ofBits .f32 0x00000000#32 + ∑ k2 : Fin 2048,
            Ideal.exp (Cert.Attn.scoreS x mask W b bi p k2 - Cert.Attn.rowMax' (Cert.Attn.scoreS x mask W b) bi p)) := by
  rw [val_main_v25_apply, v21_eq, val_main_v24_apply, val_main_v23_apply, idx_v23_v24, v22_eq]
  rfl

/-! ## The output -/

/-- The weight's index in the last product, at key position `k`. -/
theorem lidx_v26 (bi : Fin 8) (p : Fin 2048) (d : Fin 64) (k : Fin 2048) : lidx_main_v26 (ix3 bi p d) k = ix3 bi p k :=
  funext fun a => Fin.ext (by match a with | ⟨0, _⟩ => rfl | ⟨1, _⟩ => rfl | ⟨2, _⟩ => rfl)

/-- The value's index in the last product, at key position `k`. -/
theorem ridx_v26 (bi : Fin 8) (p : Fin 2048) (d : Fin 64) (k : Fin 2048) : ridx_main_v26 (ix3 bi p d) k = ix3 bi k d :=
  funext fun a => Fin.ext (by match a with | ⟨0, _⟩ => rfl | ⟨1, _⟩ => rfl | ⟨2, _⟩ => rfl)

/-- The output at batch `bi`, position `p`, column `d`. -/
theorem v26_eq (bi : Fin 8) (p : Fin 2048) (d : Fin 64) :
    val_main_v26 (F := Ideal) x mask W b (ix3 bi p d) = Cert.Attn.whole x mask W b (ix3 bi p d) := by
  rw [val_main_v26_apply]
  unfold Cert.Attn.whole Cert.Attn.attnEarly
  refine Finset.sum_congr rfl fun k _ => ?_
  rw [lidx_v26, ridx_v26, v25_eq, v6_eq]

/-- The whole-array program computes `whole`. -/
theorem ref_eq (x : FVec Ideal Cert.ReferenceIdeal.S8x2048x1024 .f32) (mask : IVec Cert.ReferenceIdeal.S8x2048x2048 32)
    (W : FVec Ideal Cert.ReferenceIdeal.S1024x192 .f32) (b : FVec Ideal Cert.ReferenceIdeal.S192 .f32) :
    Cert.ReferenceIdeal.Read.val_main_v26 (F := Ideal) x mask W b = Cert.Attn.whole x mask W b := by
  funext i
  obtain ⟨bi, p, d, rfl⟩ : ∃ bi p d, i = ix3 bi p d := ⟨i 0, i 1, i 2, eq_ix3 i⟩
  exact v26_eq x mask W b bi p d

end Cert.Attn.Ref

end
-- ==== Proof.FiniteArgs.lean ====
/-
  From the precondition to "every float input entry is a real number".

  The precondition is the conjunction of three tests, one per float argument array: every entry's absolute
  value is below +∞ (the word `0x7F800000`). At the extended reals the absolute value of `x` is `max x (-x)`,
  which is +∞ at both infinities, so an entry passing the test is a coerced real.
-/
import proofs.«152495_j15874199126439_2_alg».proof.Defs
import proofs.«152495_j15874199126439_2_alg».proof.Proof.Gen.Pre_finite_inputs
import Idealize.ShloMosaic.Lib.ReduceAll
import Idealize.ShloMosaic.Lib.ValueIdx

noncomputable section

namespace Cert.Attn.Finite

open Idealize.ShloMosaic Idealize.SL.Sem

/-- The rank-0 shape has exactly one index. -/
instance : Subsingleton Cert.Pre_finite_inputs.S_.Idx := ⟨fun a b => funext fun d => d.elim0⟩

/-- The word `0x7F800000` denotes +∞. -/
theorem inf_word : Ideal.ofBits .f32 0x7F800000#32 = (⊤ : EReal) := by
  simp [Ideal.ofBits, Ideal.ieee]

/-- An extended real whose absolute value `max x (-x)` is below +∞ is a real number. -/
theorem real_of_abs_lt_top (x : EReal) (h : max x (-x) < ⊤) : ∃ r : ℝ, x = (r : EReal) := by
  induction x using EReal.rec with
  | bot => simp at h
  | coe r => exact ⟨r, rfl⟩
  | top => simp at h

/-- One entry's test: the comparison word of `|x| < 0x7F800000` being 1 makes `x` a real number. -/
theorem real_of_test (x : EReal)
    (h : Ideal.cmp .olt (max x (-x)) (Ideal.ofBits .f32 0x7F800000#32) = 1#1) : ∃ r : ℝ, x = (r : EReal) := by
  rw [inf_word] at h
  refine real_of_abs_lt_top x ?_
  unfold Ideal.cmp at h
  by_contra hn
  simp [hn] at h

/-- The precondition decoded over any three float arrays and any mask: if the test's result word is 1, every entry of
    the three float arrays is a real number. -/
theorem entries_real [hP : Cert.Pre_finite_inputs.Facts]
    (x0 : Cert.Pre_finite_inputs.S8x2048x1024.Idx → EReal) (x1 : Cert.Pre_finite_inputs.S8x2048x2048.Idx → BitVec 32)
    (x2 : Cert.Pre_finite_inputs.S1024x192.Idx → EReal) (x3 : Cert.Pre_finite_inputs.S192.Idx → EReal)
    (h : Cert.Pre_finite_inputs.fn (F := Ideal) x0 x1 x2 x3 = (fun _ => 1#1)) :
    (∀ i, ∃ r : ℝ, x0 i = (r : EReal)) ∧ (∀ i, ∃ r : ℝ, x2 i = (r : EReal)) ∧ (∀ i, ∃ r : ℝ, x3 i = (r : EReal)) := by
  have e := congrFun h ValueIdx.ix0
  dsimp only [Cert.Pre_finite_inputs.fn] at e
  -- the test is the conjunction of the three arrays' tests
  obtain ⟨e02, e3⟩ := IntOp.andi_eq_one.1 e
  obtain ⟨e0, e2⟩ := IntOp.andi_eq_one.1 e02
  refine ⟨fun i => ?_, fun i => ?_, fun i => ?_⟩
  · exact real_of_test (x0 i) (Host.reduce_andi_all _ _ _ _ _ e0 i)
  · exact real_of_test (x2 i) (Host.reduce_andi_all _ _ _ _ _ e2 i)
  · exact real_of_test (x3 i) (Host.reduce_andi_all _ _ _ _ _ e3 i)

/-- The precondition of the tiled program, on any device: every entry of its three float argument arrays is a
    real number. -/
theorem args_real [hP : Cert.Pre_finite_inputs.Facts]
    (m : (ℓ : Loc Cert.KernelIdeal.nD Cert.KernelIdeal.τ Cert.KernelIdeal.sig) → Buf (Elt Ideal) ℓ) (hpre : Cert.Pre_KernelIdeal m) (c : Dev Cert.KernelIdeal.nD) :
    (∀ i, ∃ r : ℝ, m ((c.tc : Thread Cert.KernelIdeal.nD Cert.KernelIdeal.τ).loc Cert.KernelIdeal.main_arg0) i = (r : EReal))
    ∧ (∀ i, ∃ r : ℝ, m ((c.tc : Thread _ _).loc Cert.KernelIdeal.main_arg2) i = (r : EReal))
    ∧ (∀ i, ∃ r : ℝ, m ((c.tc : Thread _ _).loc Cert.KernelIdeal.main_arg3) i = (r : EReal)) :=
  entries_real _ _ _ _ (hpre c)

end Cert.Attn.Finite

end
-- ==== Proof.KernelRun.lean ====
/-
  The idealized kernel's run with its result array named.

  The program is two tiled stages with reshapes of whole arrays between them. Its run passes through five
  boundaries; at each the contents of every array are a known function of the launch memory: the launch memory
  itself, then the first stretch of reshapes applied, then the first stage's three output arrays replaced by what its
  write-backs leave, then the second stretch of reshapes applied, then the second stage's output array replaced by what
  its write-backs leave. Every execution ends with every array at the last boundary's contents; in particular the
  result array holds the second stage's folded write-backs and the four arguments are as launched.
-/
import proofs.«152495_j15874199126439_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates without a fault; the result array ends at the last boundary's contents
    and the four arguments end as launched. -/
theorem run_named : θ_run defs (onTc (τ := τ) (main (F := F))) ⟨m, fun _ => 0, ρ⟩ (fun r => ∀ c : Dev nD,
      r.2.mem ((c.tc : Thread nD τ).loc main_v5) = W4 m ρ c (Proc.devRef .tc main_v5)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v5 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c)⟩)

/-- The result array at the last boundary is the second stage's folded write-backs. -/
theorem W4_result (c : Dev nD) : W4 m ρ c (Proc.devRef .tc main_v5) = (dat1 (V3 m ρ) c).arrAt 4 cfg1.N :=
  W4_arr m ρ c 4

end Cert.KernelIdeal.RunValue

end
-- ==== Proof.LibPlainProduct.lean ====
/-
  The plain matrix product `[m, k] × [k, n] → [m, n]` (dimension numbers: contract the left operand's axis 1 with the
  right operand's axis 0, no batch axis), read at an entry at the ideal values, for ANY record with those dimension
  numbers whatever its well-formedness proof: a `tpu.matmul` into the zero accumulator and the host's `dot_general` are
  both `Σ_c A(a, c) · B(c, b)` over the literal range `Fin k`. General lemmas in the library's style
  (Lib/StackMember.lean states the same for the record `DotDims.plain`).
-/
import Idealize.ShloMosaic.Lib.ValueIdx
import Idealize.ShloMosaic.PureOps.Ideal.Laws

noncomputable section

open scoped BigOperators

namespace Idealize.ShloMosaic.PlainProduct

open Idealize.ShloMosaic Idealize.ShloMosaic.ValueIdx

variable {m k n : Nat} {φ₁ φ₂ : FTy}

/-- The plain product's record, from its well-formedness. -/
abbrev rec2 (w : DotDims.WF ⟨2, ![m, k]⟩ ⟨2, ![k, n]⟩ ⟨2, ![m, n]⟩ [1] [0] [0] [1] [] []) :
    DotDims ⟨2, ![m, k]⟩ ⟨2, ![k, n]⟩ ⟨2, ![m, n]⟩ := ⟨[1], [0], [0], [1], [], [], w⟩

/-- The left operand's index at output entry `(a, b)` and contraction coordinate `c` is `(a, c)`. -/
theorem lhsIdx_eq (w : DotDims.WF ⟨2, ![m, k]⟩ ⟨2, ![k, n]⟩ ⟨2, ![m, n]⟩ [1] [0] [0] [1] [] []) (a : Fin m) (b : Fin n) (c : Fin k) :
    (rec2 w).lhsIdx (ix2 a b) ((contrEquiv1 (rec2 w) k rfl rfl).symm c) = ix2 a c := by
  have c2 := contrEquiv1_symm_val (rec2 w) k rfl rfl c
  funext ax; apply Fin.ext
  match ax with
  | ⟨0, _⟩ => simp [DotDims.lhsIdx]; rfl
  | ⟨1, _⟩ => simp [DotDims.lhsIdx]; exact c2

/-- The right operand's index there is `(c, b)`. -/
theorem rhsIdx_eq (w : DotDims.WF ⟨2, ![m, k]⟩ ⟨2, ![k, n]⟩ ⟨2, ![m, n]⟩ [1] [0] [0] [1] [] []) (a : Fin m) (b : Fin n) (c : Fin k) :
    (rec2 w).rhsIdx (ix2 a b) ((contrEquiv1 (rec2 w) k rfl rfl).symm c) = ix2 c b := by
  have c2 := contrEquiv1_symm_val (rec2 w) k rfl rfl c
  funext ax; apply Fin.ext
  match ax with
  | ⟨0, _⟩ => simp [DotDims.rhsIdx]; exact c2
  | ⟨1, _⟩ => simp [DotDims.rhsIdx]; rfl

/-- A `tpu.matmul` with these dimension numbers into the zero accumulator, at entry `(a, b)`. -/
theorem matmul_zero_apply (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    matmul (rec2 w) prec A B (constant (F := Ideal) ⟨2, ![m, n]⟩ .f32 0x00000000#32) (ix2 a b)
      = ∑ c : Fin k, A (ix2 a c) * B (ix2 c b) := by
  show FloatOps.matmul _ prec A B _ (ix2 a b) = _
  rw [Ideal.matmul_constant_zero_apply, ← Equiv.sum_comp (contrEquiv1 (rec2 w) k rfl rfl).symm]
  refine Finset.sum_congr rfl fun c _ => ?_
  rw [lhsIdx_eq, rhsIdx_eq]

/-- The host's `dot_general` with these dimension numbers, at entry `(a, b)`. -/
theorem dotGeneral_apply (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    Host.dotGeneral (rec2 w) prec A B (ix2 a b) = ∑ c : Fin k, A (ix2 a c) * B (ix2 c b) := by
  show FloatOps.dotGeneral _ prec _ A B (ix2 a b) = _
  rw [Ideal.dotGeneral_apply, ← Equiv.sum_comp (contrEquiv1 (rec2 w) k rfl rfl).symm]
  refine Finset.sum_congr rfl fun c _ => ?_
  rw [lhsIdx_eq, rhsIdx_eq]

end Idealize.ShloMosaic.PlainProduct

end
-- ==== Proof.LibBroadcastTo.lean ====
/-
  A vector broadcast of a row or of a column to a matrix, read at an entry. General in the extents.

  * a row `[1, n]` broadcast down `m` rows: entry `(p, k)` is the row's entry `(0, k)`;
  * a column `[m, 1]` broadcast across `n` columns: entry `(p, k)` is the column's entry `(p, 0)`.
-/
import Idealize.ShloMosaic.Lib.Pipeline.Value
import Idealize.ShloMosaic.Lib.ValueIdx

noncomputable section

namespace Cert.BroadcastTo

open Idealize.ShloMosaic Idealize.ShloMosaic.ValueIdx

variable {α : Type} {m n : Nat}

/-- A row broadcast down the rows keeps the column coordinate. -/
theorem row_apply (x : (⟨2, ![1, n]⟩ : Shape).Idx → α) (h : (⟨2, ![1, n]⟩ : Shape).Broadcasts ⟨2, ![m, n]⟩)
    (p : Fin m) (k : Fin n) : broadcastTo ⟨2, ![m, n]⟩ x h (ix2 p k) = x (ix2 0 k) :=
  broadcastTo_apply x h (ix2 p k) (ix2 0 k) (fun a => match a with
    | ⟨0, _⟩ => by show (0 : ℕ) = if (1 : ℕ) = 1 then 0 else _; rw [if_pos rfl]
    | ⟨1, _⟩ => by
      show k.val = if n = 1 then 0 else k.val
      split
      · have := k.isLt; omega
      · rfl)

/-- A column broadcast across the columns keeps the row coordinate. -/
theorem col_apply (x : (⟨2, ![m, 1]⟩ : Shape).Idx → α) (h : (⟨2, ![m, 1]⟩ : Shape).Broadcasts ⟨2, ![m, n]⟩)
    (p : Fin m) (k : Fin n) : broadcastTo ⟨2, ![m, n]⟩ x h (ix2 p k) = x (ix2 p 0) :=
  broadcastTo_apply x h (ix2 p k) (ix2 p 0) (fun a => match a with
    | ⟨0, _⟩ => by
      show p.val = if m = 1 then 0 else p.val
      split
      · have := p.isLt; omega
      · rfl
    | ⟨1, _⟩ => by show (0 : ℕ) = if (1 : ℕ) = 1 then 0 else _; rw [if_pos rfl])

end Cert.BroadcastTo

end
-- ==== Proof.LibLayoutReads.lean ====
/-
  Three layout operations read at one entry, general in the extents and in the element type.

  * a vector `[n]` reshaped to a column `[n, 1]`: entry `(r, 0)` is the vector's entry `r` (both sit at row-major
    position `r`);
  * a vector `[n]` reshaped to a row `[1, n]`: entry `(0, b)` is the vector's entry `b`;
  * `r` consecutive rows of a matrix `[R, C]` from row `o` on, all `C` columns: entry `(a, b)` is the matrix's entry
    `(o + a, b)`.
-/
import Idealize.ShloMosaic.Lib.Pipeline.Value
import Idealize.ShloMosaic.Lib.ValueIdx

noncomputable section

namespace Cert.LayoutReads

open Idealize.ShloMosaic Idealize.ShloMosaic.ValueIdx

variable {α : Type}

/-- A vector `[n]` reshaped to a column `[n, 1]`, read at `(r, 0)`, is the vector at `r`. -/
theorem col_of_vec_apply {n : Nat} (v : (⟨1, ![n]⟩ : Shape).Idx → α) (h : (⟨1, ![n]⟩ : Shape).ShapeCasts ⟨2, ![n, 1]⟩)
    (r : Fin n) : shapeCast ⟨2, ![n, 1]⟩ v h (ix2 r (0 : Fin 1)) = v (ix1 r) :=
  shapeCast_apply v h (ix2 r (0 : Fin 1)) (ix1 r) (by
    rw [Shape.rowMajor_val_two, Shape.rowMajor_val_one]; show r.val = r.val * 1 + 0; omega)

/-- A vector `[n]` reshaped to a row `[1, n]`, read at `(0, b)`, is the vector at `b`. -/
theorem row_of_vec_apply {n : Nat} (v : (⟨1, ![n]⟩ : Shape).Idx → α) (h : (⟨1, ![n]⟩ : Shape).ShapeCasts ⟨2, ![1, n]⟩)
    (b : Fin n) : shapeCast ⟨2, ![1, n]⟩ v h (ix2 (0 : Fin 1) b) = v (ix1 b) :=
  shapeCast_apply v h (ix2 (0 : Fin 1) b) (ix1 b) (by
    rw [Shape.rowMajor_val_two, Shape.rowMajor_val_one]; show b.val = 0 * n + b.val; omega)

/-- Rows `o` to `o + r` of a matrix `[R, C]`, all columns, read at `(a, b)`, are the matrix at `(o + a, b)`. -/
theorem rows_slice_apply {R C r o : Nat} (x : (⟨2, ![R, C]⟩ : Shape).Idx → α)
    (h : (⟨2, ![R, C]⟩ : Shape).Slices ![o, 0] ⟨2, ![r, C]⟩) (hb : o + r ≤ R) (a : Fin r) (b : Fin C) :
    extractStridedSlice ⟨2, ![r, C]⟩ ![o, 0] x h (ix2 a b)
      = x (ix2 (⟨o + a.val, by have := a.isLt; omega⟩ : Fin R) b) :=
  extractStridedSlice_apply ![o, 0] x h (ix2 a b) (ix2 (⟨o + a.val, by have := a.isLt; omega⟩ : Fin R) b)
    (fun c => match c with
      | ⟨0, _⟩ => rfl
      | ⟨1, _⟩ => by show b.val = 0 + b.val; omega)

end Cert.LayoutReads

end
-- ==== Proof.StageOneBody.lean ====
/-
  The first stage's body at one entry of a tile.

  A tile is 2048 consecutive rows of the flattened input (16384 rows of 1024 numbers). The body multiplies the tile by
  the whole weight matrix, adds the bias row to every row, and stores columns 0–63, 64–127 and 128–191 of the
  2048 × 192 result as three separate tiles. Entry `(r, d)` of the tile cut from column offset `o` is therefore
  `Σ_e tile[r, e] · W[e, o + d] + b[o + d]`.
-/
import proofs.«152495_j15874199126439_2_alg».proof.Proof.Gen.KernelIdeal.Skeleton
import proofs.«152495_j15874199126439_2_alg».proof.Proof.LibPlainProduct
import proofs.«152495_j15874199126439_2_alg».proof.Proof.LibBroadcastTo
import proofs.«152495_j15874199126439_2_alg».proof.Proof.LibLayoutReads
import Idealize.ShloMosaic.Lib.ValueLayout
import Idealize.ShloMosaic.Lib.Pipeline.Value
import Idealize.ShloMosaic.Lib.ValueIdx
import Idealize.ShloMosaic.PureOps.Ideal.Laws

noncomputable section

open scoped BigOperators

namespace Cert.KernelIdeal.StageOne

open Cert.KernelIdeal Cert.KernelIdeal.Gen
open Idealize.ShloMosaic Idealize.ShloMosaic.ValueIdx

/-- The product-plus-bias at row `r`, column `j` of the 2048 × 192 intermediate. -/
theorem affine_apply (x0 : Vec Ideal S2048x1024 .f32) (x1 : Vec Ideal S1024x192 .f32) (x2 : Vec Ideal S192 .f32)
    (r : Fin 2048) (j : Fin 192) :
    k0_pay1 (F := Ideal) x0 x1 x2 (ix2 r j) = (∑ e : Fin 1024, x0 (ix2 r e) * x1 (ix2 e j)) + x2 (ix1 j) := by
  unfold k0_pay1
  rw [addf_apply]
  congr 1
  · rw [shapeCast_self]
    exact PlainProduct.matmul_zero_apply _ none _ _ r j
  · rw [Cert.BroadcastTo.row_apply, Cert.LayoutReads.row_of_vec_apply]

/-- The stored tile cut from column offset `o` (0, 64 or 128), at `(r, d)`. -/
theorem pay_q_apply (x0 : Vec Ideal S2048x1024 .f32) (x1 : Vec Ideal S1024x192 .f32) (x2 : Vec Ideal S192 .f32)
    (r : Fin 2048) (d : Fin 64) (j : Fin 192) (hj : j.val = 0 + d.val) :
    k0_pay2 (F := Ideal) x0 x1 x2 (ix2 r d) = (∑ e : Fin 1024, x0 (ix2 r e) * x1 (ix2 e j)) + x2 (ix1 j) := by
  unfold k0_pay2
  rw [slice2_axis1_apply 0 _ _ r d j hj, affine_apply]

theorem pay_k_apply (x0 : Vec Ideal S2048x1024 .f32) (x1 : Vec Ideal S1024x192 .f32) (x2 : Vec Ideal S192 .f32)
    (r : Fin 2048) (d : Fin 64) (j : Fin 192) (hj : j.val = 64 + d.val) :
    k0_pay3 (F := Ideal) x0 x1 x2 (ix2 r d) = (∑ e : Fin 1024, x0 (ix2 r e) * x1 (ix2 e j)) + x2 (ix1 j) := by
  unfold k0_pay3
  rw [slice2_axis1_apply 64 _ _ r d j hj, affine_apply]

theorem pay_v_apply (x0 : Vec Ideal S2048x1024 .f32) (x1 : Vec Ideal S1024x192 .f32) (x2 : Vec Ideal S192 .f32)
    (r : Fin 2048) (d : Fin 64) (j : Fin 192) (hj : j.val = 128 + d.val) :
    k0_pay4 (F := Ideal) x0 x1 x2 (ix2 r d) = (∑ e : Fin 1024, x0 (ix2 r e) * x1 (ix2 e j)) + x2 (ix1 j) := by
  unfold k0_pay4
  rw [slice2_axis1_apply 128 _ _ r d j hj, affine_apply]

end Cert.KernelIdeal.StageOne

end
-- ==== Proof.StageOne.lean ====
/-
  The first stage's three output arrays after its run.

  The stage walks the 16384 rows of the flattened input in 8 tiles of 2048 rows. At tile `t` it reads rows
  `2048·t … 2048·t + 2047` of the input, the whole weight matrix and the whole bias, and writes rows
  `2048·t … 2048·t + 2047` of each of the three outputs. So entry `(r, d)` of the output cut from column offset `o`
  is `Σ_e in[r, e] · W[e, o + d] + b[o + d]`, whatever the tile that wrote it; the 8 tiles cover every row.
-/
import proofs.«152495_j15874199126439_2_alg».proof.Proof.Gen.KernelIdeal.Frame
import proofs.«152495_j15874199126439_2_alg».proof.Proof.StageOneBody
import Idealize.ShloMosaic.Lib.Pipeline.Value

set_option maxRecDepth 16384

noncomputable section

open scoped BigOperators

namespace Cert.KernelIdeal.StageOne

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The flattened input's row-by-row affine image, the 64 columns from offset `o`. -/
def rowAffine (X : S16384x1024.Idx → EReal) (W : S1024x192.Idx → EReal) (b : S192.Idx → EReal) (o : Nat) (ho : o + 64 ≤ 192) :
    S16384x64.Idx → EReal := fun i =>
  (∑ e : Fin 1024, X (ix2 (⟨(i 0).val, (i 0).isLt⟩ : Fin 16384) e) * W (ix2 e (⟨o + (i 1).val, by have := (i 1).isLt; simp at this; omega⟩ : Fin 192)))
    + b (ix1 (⟨o + (i 1).val, by have := (i 1).isLt; simp at this; omega⟩ : Fin 192))

/-- The printed tile positions, decided over the 8 tiles: the input sits at row-block `t`, the weights and the bias
    at block 0. -/
theorem idx_in : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 1) = 0 :=
  (by decide +kernel : ∀ t : Fin grid0.N, _)

/-- Each of the three outputs sits at row-block `t`. -/
theorem idx_q : ∀ t : Fin cfg0.N, win0_3.index t (0 : Fin 2) = t.val ∧ win0_3.index t (1 : Fin 2) = 0 :=
  (by decide +kernel : ∀ t : Fin grid0.N, _)
theorem idx_k : ∀ t : Fin cfg0.N, win0_4.index t (0 : Fin 2) = t.val ∧ win0_4.index t (1 : Fin 2) = 0 :=
  (by decide +kernel : ∀ t : Fin grid0.N, _)
theorem idx_v : ∀ t : Fin cfg0.N, win0_5.index t (0 : Fin 2) = t.val ∧ win0_5.index t (1 : Fin 2) = 0 :=
  (by decide +kernel : ∀ t : Fin grid0.N, _)

/-- Row `r` of tile `t` is row `2048·t + r` of the array. -/
def rowOf (t : Fin cfg0.N) (r : Fin 2048) : Fin 16384 :=
  ⟨t.val * 2048 + r.val, by have := t.isLt; have h8 : cfg0.N = 8 := N_0; have := r.isLt; omega⟩

/-- Tile `t` of the input, read at `(r, e)`, is the input at row `2048·t + r`. -/
theorem read_in (c : Dev nD) (t : Fin cfg0.N) (r : Fin 2048) (e : Fin 1024) :
    iblk0 V c 0 t (ix2 r e) = V c main_v0 (ix2 (rowOf t r) e) := by
  show V c main_v0 (((cfg0.win 0).blk t).view.emb (ix2 r e)) = _
  refine congrArg (V c main_v0) (funext fun a => Fin.ext ?_)
  obtain ⟨e0, e1, -⟩ := idx_in t
  match a with
  | ⟨0, _⟩ => show win0_0.index t (0 : Fin 2) * 2048 + 1 * r.val = t.val * 2048 + r.val; rw [e0]; omega
  | ⟨1, _⟩ => show win0_0.index t (1 : Fin 2) * 1024 + 1 * e.val = e.val; rw [e1]; omega

/-- Every tile's weight block is the whole weight matrix. -/
theorem read_w (c : Dev nD) (t : Fin cfg0.N) (e : Fin 1024) (j : Fin 192) :
    iblk0 V c 1 t (ix2 e j) = V c main_arg2 (ix2 e j) := by
  show V c main_arg2 (((cfg0.win 1).blk t).view.emb (ix2 e j)) = _
  refine congrArg (V c main_arg2) (funext fun a => Fin.ext ?_)
  obtain ⟨-, -, e2, e3, -⟩ := idx_in t
  match a with
  | ⟨0, _⟩ => show win0_1.index t (0 : Fin 2) * 1024 + 1 * e.val = e.val; rw [e2]; omega
  | ⟨1, _⟩ => show win0_1.index t (1 : Fin 2) * 192 + 1 * j.val = j.val; rw [e3]; omega

/-- Every tile's bias block is the whole bias. -/
theorem read_b (c : Dev nD) (t : Fin cfg0.N) (j : Fin 192) :
    iblk0 V c 2 t (ix1 j) = V c main_arg3 (ix1 j) := by
  show V c main_arg3 (((cfg0.win 2).blk t).view.emb (ix1 j)) = _
  refine congrArg (V c main_arg3) (funext fun a => Fin.ext ?_)
  obtain ⟨-, -, -, -, e4⟩ := idx_in t
  match a with
  | ⟨0, _⟩ => show win0_2.index t (0 : Fin 1) * 192 + 1 * j.val = j.val; rw [e4]; omega

/-! ## The first output (columns 0–63) -/

/-- Its tile `t` sits at rows `2048·t …` of its array. -/
theorem emb_q (t : Fin cfg0.N) (r : Fin 2048) (d : Fin 64) :
    ((cfg0.win 3).blk t).view.emb (ix2 r d) = ix2 (rowOf t r) d := by
  funext a; apply Fin.ext
  obtain ⟨e5, e6⟩ := idx_q t
  match a with
  | ⟨0, _⟩ => show win0_3.index t (0 : Fin 2) * 2048 + 1 * r.val = t.val * 2048 + r.val; rw [e5]; omega
  | ⟨1, _⟩ => show win0_3.index t (1 : Fin 2) * 64 + 1 * d.val = d.val; rw [e6]; omega

/-- What tile `t` writes back is tile `t` of the row-by-row affine image at column offset 0. -/
theorem flushed_q (c : Dev nD) (t : Fin cfg0.N) :
    (dat0 V c).flushed 3 t = ((cfg0.win 3).blk t).view.read (Elt Ideal)
      (rowAffine (V c main_v0) (V c main_arg2) (V c main_arg3) 0 (by omega)) := by
  show (cfg0.win 3).cut (grid0.coords t) ((dat0 V c).after 3 t) = _
  rw [after0_3]
  unfold out0_3
  rw [View.canon_unit_zero hz2]
  simp only [View.ld_unit_zero (S := S2048x1024) hz2, View.ld_unit_zero (S := S1024x192) hz2, View.ld_unit_zero (S := S192) hz1]
  funext j
  obtain ⟨r, d, rfl⟩ : ∃ (r : Fin 2048) (d : Fin 64), j = ix2 r d := ⟨j 0, j 1, eq_ix2 j⟩
  show k0_pay2 (F := Ideal) (iblk0 V c 0 t) (iblk0 V c 1 t) (iblk0 V c 2 t) (ix2 r d)
    = rowAffine (V c main_v0) (V c main_arg2) (V c main_arg3) 0 (by omega) (((cfg0.win 3).blk t).view.emb (ix2 r d))
  rw [emb_q]
  refine (pay_q_apply _ _ _ r d ⟨0 + d.val, by have := d.isLt; omega⟩ rfl).trans ?_
  unfold rowAffine
  rw [read_b]
  refine congrArg (· + _) (Finset.sum_congr rfl fun e _ => ?_)
  rw [read_in, read_w]

/-- An entry of the array is in tile `t` iff each coordinate is in the tile's range on its axis. -/
theorem mem_q (t : Fin cfg0.N) (i : S16384x64.Idx) :
    i ∈ ((cfg0.win 3).blk t).view.set ↔ ∀ a : Fin 2, win0_3.index t a * S2048x64.size a ≤ (i a).val ∧ (i a).val < win0_3.index t a * S2048x64.size a + S2048x64.size a := by
  show i ∈ ((View.whole main_v1_0).slice (win0_3.rect t)).set ↔ _
  rw [View.set_slice_whole, Rect.mem_set_unit]
  exact Iff.rfl

/-- The 8 tiles cover the array: row `r` lies in tile `r / 2048`. -/
theorem cover_q (i : S16384x64.Idx) :
    ∃ t : Fin cfg0.N, (cfg0.win 3).flush t = true ∧ i ∈ ((cfg0.win 3).blk t).view.set := by
  have hi0 : (i 0).val < 16384 := (i 0).isLt
  have hi1 : (i 1).val < 64 := (i 1).isLt
  have h8 : cfg0.N = 8 := N_0
  have ht : (i 0).val / 2048 < cfg0.N := by omega
  refine ⟨⟨(i 0).val / 2048, ht⟩, flush0_3 _, ?_⟩
  rw [mem_q]
  obtain ⟨e5, e6⟩ := idx_q ⟨(i 0).val / 2048, ht⟩
  intro a
  match a with
  | ⟨0, _⟩ =>
    show win0_3.index ⟨(i 0).val / 2048, ht⟩ (0 : Fin 2) * 2048 ≤ (i 0).val ∧ (i 0).val < win0_3.index ⟨(i 0).val / 2048, ht⟩ (0 : Fin 2) * 2048 + 2048
    rw [e5]; show (i 0).val / 2048 * 2048 ≤ (i 0).val ∧ (i 0).val < (i 0).val / 2048 * 2048 + 2048; omega
  | ⟨1, _⟩ =>
    show win0_3.index ⟨(i 0).val / 2048, ht⟩ (1 : Fin 2) * 64 ≤ (i 1).val ∧ (i 1).val < win0_3.index ⟨(i 0).val / 2048, ht⟩ (1 : Fin 2) * 64 + 64
    rw [e6]; omega

/-- THE ARRAY after the stage: the row-by-row affine image at column offset 0. -/
theorem final_q (c : Dev nD) :
    (dat0 V c).arrAt 3 cfg0.N = rowAffine (V c main_v0) (V c main_arg2) (V c main_arg3) 0 (by omega) :=
  (dat0 V c).arrAt_eq_of_cover 3 _ (fun t _ => flushed_q V c t) cover_q

/-! ## The second output (columns 64–127) -/

/-- Its tile `t` sits at rows `2048·t …` of its array. -/
theorem emb_k (t : Fin cfg0.N) (r : Fin 2048) (d : Fin 64) :
    ((cfg0.win 4).blk t).view.emb (ix2 r d) = ix2 (rowOf t r) d := by
  funext a; apply Fin.ext
  obtain ⟨e5, e6⟩ := idx_k t
  match a with
  | ⟨0, _⟩ => show win0_4.index t (0 : Fin 2) * 2048 + 1 * r.val = t.val * 2048 + r.val; rw [e5]; omega
  | ⟨1, _⟩ => show win0_4.index t (1 : Fin 2) * 64 + 1 * d.val = d.val; rw [e6]; omega

/-- What tile `t` writes back is tile `t` of the row-by-row affine image at column offset 64. -/
theorem flushed_k (c : Dev nD) (t : Fin cfg0.N) :
    (dat0 V c).flushed 4 t = ((cfg0.win 4).blk t).view.read (Elt Ideal)
      (rowAffine (V c main_v0) (V c main_arg2) (V c main_arg3) 64 (by omega)) := by
  show (cfg0.win 4).cut (grid0.coords t) ((dat0 V c).after 4 t) = _
  rw [after0_4]
  unfold out0_4
  rw [View.canon_unit_zero hz2]
  simp only [View.ld_unit_zero (S := S2048x1024) hz2, View.ld_unit_zero (S := S1024x192) hz2, View.ld_unit_zero (S := S192) hz1]
  funext j
  obtain ⟨r, d, rfl⟩ : ∃ (r : Fin 2048) (d : Fin 64), j = ix2 r d := ⟨j 0, j 1, eq_ix2 j⟩
  show k0_pay3 (F := Ideal) (iblk0 V c 0 t) (iblk0 V c 1 t) (iblk0 V c 2 t) (ix2 r d)
    = rowAffine (V c main_v0) (V c main_arg2) (V c main_arg3) 64 (by omega) (((cfg0.win 4).blk t).view.emb (ix2 r d))
  rw [emb_k]
  refine (pay_k_apply _ _ _ r d ⟨64 + d.val, by have := d.isLt; omega⟩ rfl).trans ?_
  unfold rowAffine
  rw [read_b]
  refine congrArg (· + _) (Finset.sum_congr rfl fun e _ => ?_)
  rw [read_in, read_w]

/-- An entry of the array is in tile `t` iff each coordinate is in the tile's range on its axis. -/
theorem mem_k (t : Fin cfg0.N) (i : S16384x64.Idx) :
    i ∈ ((cfg0.win 4).blk t).view.set ↔ ∀ a : Fin 2, win0_4.index t a * S2048x64.size a ≤ (i a).val ∧ (i a).val < win0_4.index t a * S2048x64.size a + S2048x64.size a := by
  show i ∈ ((View.whole main_v1_1).slice (win0_4.rect t)).set ↔ _
  rw [View.set_slice_whole, Rect.mem_set_unit]
  exact Iff.rfl

/-- The 8 tiles cover the array: row `r` lies in tile `r / 2048`. -/
theorem cover_k (i : S16384x64.Idx) :
    ∃ t : Fin cfg0.N, (cfg0.win 4).flush t = true ∧ i ∈ ((cfg0.win 4).blk t).view.set := by
  have hi0 : (i 0).val < 16384 := (i 0).isLt
  have hi1 : (i 1).val < 64 := (i 1).isLt
  have h8 : cfg0.N = 8 := N_0
  have ht : (i 0).val / 2048 < cfg0.N := by omega
  refine ⟨⟨(i 0).val / 2048, ht⟩, flush0_4 _, ?_⟩
  rw [mem_k]
  obtain ⟨e5, e6⟩ := idx_k ⟨(i 0).val / 2048, ht⟩
  intro a
  match a with
  | ⟨0, _⟩ =>
    show win0_4.index ⟨(i 0).val / 2048, ht⟩ (0 : Fin 2) * 2048 ≤ (i 0).val ∧ (i 0).val < win0_4.index ⟨(i 0).val / 2048, ht⟩ (0 : Fin 2) * 2048 + 2048
    rw [e5]; show (i 0).val / 2048 * 2048 ≤ (i 0).val ∧ (i 0).val < (i 0).val / 2048 * 2048 + 2048; omega
  | ⟨1, _⟩ =>
    show win0_4.index ⟨(i 0).val / 2048, ht⟩ (1 : Fin 2) * 64 ≤ (i 1).val ∧ (i 1).val < win0_4.index ⟨(i 0).val / 2048, ht⟩ (1 : Fin 2) * 64 + 64
    rw [e6]; omega

/-- THE ARRAY after the stage: the row-by-row affine image at column offset 64. -/
theorem final_k (c : Dev nD) :
    (dat0 V c).arrAt 4 cfg0.N = rowAffine (V c main_v0) (V c main_arg2) (V c main_arg3) 64 (by omega) :=
  (dat0 V c).arrAt_eq_of_cover 4 _ (fun t _ => flushed_k V c t) cover_k

/-! ## The third output (columns 128–191) -/

/-- Its tile `t` sits at rows `2048·t …` of its array. -/
theorem emb_v (t : Fin cfg0.N) (r : Fin 2048) (d : Fin 64) :
    ((cfg0.win 5).blk t).view.emb (ix2 r d) = ix2 (rowOf t r) d := by
  funext a; apply Fin.ext
  obtain ⟨e5, e6⟩ := idx_v t
  match a with
  | ⟨0, _⟩ => show win0_5.index t (0 : Fin 2) * 2048 + 1 * r.val = t.val * 2048 + r.val; rw [e5]; omega
  | ⟨1, _⟩ => show win0_5.index t (1 : Fin 2) * 64 + 1 * d.val = d.val; rw [e6]; omega

/-- What tile `t` writes back is tile `t` of the row-by-row affine image at column offset 128. -/
theorem flushed_v (c : Dev nD) (t : Fin cfg0.N) :
    (dat0 V c).flushed 5 t = ((cfg0.win 5).blk t).view.read (Elt Ideal)
      (rowAffine (V c main_v0) (V c main_arg2) (V c main_arg3) 128 (by omega)) := by
  show (cfg0.win 5).cut (grid0.coords t) ((dat0 V c).after 5 t) = _
  rw [after0_5]
  unfold out0_5
  rw [View.canon_unit_zero hz2]
  simp only [View.ld_unit_zero (S := S2048x1024) hz2, View.ld_unit_zero (S := S1024x192) hz2, View.ld_unit_zero (S := S192) hz1]
  funext j
  obtain ⟨r, d, rfl⟩ : ∃ (r : Fin 2048) (d : Fin 64), j = ix2 r d := ⟨j 0, j 1, eq_ix2 j⟩
  show k0_pay4 (F := Ideal) (iblk0 V c 0 t) (iblk0 V c 1 t) (iblk0 V c 2 t) (ix2 r d)
    = rowAffine (V c main_v0) (V c main_arg2) (V c main_arg3) 128 (by omega) (((cfg0.win 5).blk t).view.emb (ix2 r d))
  rw [emb_v]
  refine (pay_v_apply _ _ _ r d ⟨128 + d.val, by have := d.isLt; omega⟩ rfl).trans ?_
  unfold rowAffine
  rw [read_b]
  refine congrArg (· + _) (Finset.sum_congr rfl fun e _ => ?_)
  rw [read_in, read_w]

/-- An entry of the array is in tile `t` iff each coordinate is in the tile's range on its axis. -/
theorem mem_v (t : Fin cfg0.N) (i : S16384x64.Idx) :
    i ∈ ((cfg0.win 5).blk t).view.set ↔ ∀ a : Fin 2, win0_5.index t a * S2048x64.size a ≤ (i a).val ∧ (i a).val < win0_5.index t a * S2048x64.size a + S2048x64.size a := by
  show i ∈ ((View.whole main_v1_2).slice (win0_5.rect t)).set ↔ _
  rw [View.set_slice_whole, Rect.mem_set_unit]
  exact Iff.rfl

/-- The 8 tiles cover the array: row `r` lies in tile `r / 2048`. -/
theorem cover_v (i : S16384x64.Idx) :
    ∃ t : Fin cfg0.N, (cfg0.win 5).flush t = true ∧ i ∈ ((cfg0.win 5).blk t).view.set := by
  have hi0 : (i 0).val < 16384 := (i 0).isLt
  have hi1 : (i 1).val < 64 := (i 1).isLt
  have h8 : cfg0.N = 8 := N_0
  have ht : (i 0).val / 2048 < cfg0.N := by omega
  refine ⟨⟨(i 0).val / 2048, ht⟩, flush0_5 _, ?_⟩
  rw [mem_v]
  obtain ⟨e5, e6⟩ := idx_v ⟨(i 0).val / 2048, ht⟩
  intro a
  match a with
  | ⟨0, _⟩ =>
    show win0_5.index ⟨(i 0).val / 2048, ht⟩ (0 : Fin 2) * 2048 ≤ (i 0).val ∧ (i 0).val < win0_5.index ⟨(i 0).val / 2048, ht⟩ (0 : Fin 2) * 2048 + 2048
    rw [e5]; show (i 0).val / 2048 * 2048 ≤ (i 0).val ∧ (i 0).val < (i 0).val / 2048 * 2048 + 2048; omega
  | ⟨1, _⟩ =>
    show win0_5.index ⟨(i 0).val / 2048, ht⟩ (1 : Fin 2) * 64 ≤ (i 1).val ∧ (i 1).val < win0_5.index ⟨(i 0).val / 2048, ht⟩ (1 : Fin 2) * 64 + 64
    rw [e6]; omega

/-- THE ARRAY after the stage: the row-by-row affine image at column offset 128. -/
theorem final_v (c : Dev nD) :
    (dat0 V c).arrAt 5 cfg0.N = rowAffine (V c main_v0) (V c main_arg2) (V c main_arg3) 128 (by omega) :=
  (dat0 V c).arrAt_eq_of_cover 5 _ (fun t _ => flushed_v V c t) cover_v

end Cert.KernelIdeal.StageOne

end
-- ==== Proof.LibBatchProduct.lean ====
/-
  Two batched matrix products over rank-3 arrays `[B, ·, ·]`, read at an entry at the ideal values, for ANY record
  with those dimension numbers whatever its well-formedness proof — so both a `tpu.matmul` into the zero
  accumulator and the host's `dot_general` are the textbook sums over the literal range `Fin K`:

  * rows against rows (`q · kᵀ`): contract axis 2 of `[B, M, K]` with axis 2 of `[B, N, K]`, batch axis 0 on both:
    entry `(b, p, q)` is `Σ_c L(b, p, c) · R(b, q, c)`;
  * rows against columns (`p · v`): contract axis 2 of `[B, M, K]` with axis 1 of `[B, K, N]`, batch axis 0 on both:
    entry `(b, p, q)` is `Σ_c L(b, p, c) · R(b, c, q)`.
-/
import Idealize.ShloMosaic.Lib.ValueIdx
import Idealize.ShloMosaic.PureOps.Ideal.Laws

noncomputable section

open scoped BigOperators

namespace Idealize.ShloMosaic.BatchProduct

open Idealize.ShloMosaic Idealize.ShloMosaic.ValueIdx

variable {B M N K : Nat} {φ₁ φ₂ : FTy}

/-! ## Rows against rows -/

/-- The record of the rows-against-rows product, from its well-formedness. -/
abbrev recT (w : DotDims.WF ⟨3, ![B, M, K]⟩ ⟨3, ![B, N, K]⟩ ⟨3, ![B, M, N]⟩ [2] [2] [1] [1] [0] [0]) :
    DotDims ⟨3, ![B, M, K]⟩ ⟨3, ![B, N, K]⟩ ⟨3, ![B, M, N]⟩ := ⟨[2], [2], [1], [1], [0], [0], w⟩

/-- The left operand's index at output entry `(b, p, q)` and contraction coordinate `c` is `(b, p, c)`. -/
theorem lhsIdxT_eq (w : DotDims.WF ⟨3, ![B, M, K]⟩ ⟨3, ![B, N, K]⟩ ⟨3, ![B, M, N]⟩ [2] [2] [1] [1] [0] [0])
    (b : Fin B) (p : Fin M) (q : Fin N) (c : Fin K) :
    (recT w).lhsIdx (ix3 b p q) ((contrEquiv1 (recT w) K rfl rfl).symm c) = ix3 b p c := by
  have c2 := contrEquiv1_symm_val (recT w) K rfl rfl c
  funext ax; apply Fin.ext
  match ax with
  | ⟨0, _⟩ => simp [DotDims.lhsIdx] <;> first | rfl | exact c2
  | ⟨1, _⟩ => simp [DotDims.lhsIdx] <;> first | rfl | exact c2
  | ⟨2, _⟩ => simp [DotDims.lhsIdx] <;> first | exact c2 | rfl

/-- The right operand's index there is `(b, q, c)`. -/
theorem rhsIdxT_eq (w : DotDims.WF ⟨3, ![B, M, K]⟩ ⟨3, ![B, N, K]⟩ ⟨3, ![B, M, N]⟩ [2] [2] [1] [1] [0] [0])
    (b : Fin B) (p : Fin M) (q : Fin N) (c : Fin K) :
    (recT w).rhsIdx (ix3 b p q) ((contrEquiv1 (recT w) K rfl rfl).symm c) = ix3 b q c := by
  have c2 := contrEquiv1_symm_val (recT w) K rfl rfl c
  funext ax; apply Fin.ext
  match ax with
  | ⟨0, _⟩ => simp [DotDims.rhsIdx] <;> first | rfl | exact c2
  | ⟨1, _⟩ => simp [DotDims.rhsIdx] <;> first | rfl | exact c2
  | ⟨2, _⟩ => simp [DotDims.rhsIdx] <;> first | exact c2 | rfl

/-- A `tpu.matmul` with these dimension numbers into the zero accumulator, at entry `(b, p, q)`. -/
theorem matmulT_zero_apply (w : DotDims.WF ⟨3, ![B, M, K]⟩ ⟨3, ![B, N, K]⟩ ⟨3, ![B, M, N]⟩ [2] [2] [1] [1] [0] [0])
    (prec : Option ContractPrecision) (L : FVec Ideal ⟨3, ![B, M, K]⟩ φ₁) (R : FVec Ideal ⟨3, ![B, N, K]⟩ φ₂)
    (b : Fin B) (p : Fin M) (q : Fin N) :
    matmul (recT w) prec L R (constant (F := Ideal) ⟨3, ![B, M, N]⟩ .f32 0x00000000#32) (ix3 b p q)
      = ∑ c : Fin K, L (ix3 b p c) * R (ix3 b q c) := by
  show FloatOps.matmul _ prec L R _ (ix3 b p q) = _
  rw [Ideal.matmul_constant_zero_apply, ← Equiv.sum_comp (contrEquiv1 (recT w) K rfl rfl).symm]
  refine Finset.sum_congr rfl fun c _ => ?_
  rw [lhsIdxT_eq, rhsIdxT_eq]

/-! ## Rows against columns -/

/-- The record of the rows-against-columns product, from its well-formedness. -/
abbrev recN (w : DotDims.WF ⟨3, ![B, M, K]⟩ ⟨3, ![B, K, N]⟩ ⟨3, ![B, M, N]⟩ [2] [1] [1] [2] [0] [0]) :
    DotDims ⟨3, ![B, M, K]⟩ ⟨3, ![B, K, N]⟩ ⟨3, ![B, M, N]⟩ := ⟨[2], [1], [1], [2], [0], [0], w⟩

/-- The left operand's index at output entry `(b, p, q)` and contraction coordinate `c` is `(b, p, c)`. -/
theorem lhsIdxN_eq (w : DotDims.WF ⟨3, ![B, M, K]⟩ ⟨3, ![B, K, N]⟩ ⟨3, ![B, M, N]⟩ [2] [1] [1] [2] [0] [0])
    (b : Fin B) (p : Fin M) (q : Fin N) (c : Fin K) :
    (recN w).lhsIdx (ix3 b p q) ((contrEquiv1 (recN w) K rfl rfl).symm c) = ix3 b p c := by
  have c2 := contrEquiv1_symm_val (recN w) K rfl rfl c
  funext ax; apply Fin.ext
  match ax with
  | ⟨0, _⟩ => simp [DotDims.lhsIdx] <;> first | rfl | exact c2
  | ⟨1, _⟩ => simp [DotDims.lhsIdx] <;> first | rfl | exact c2
  | ⟨2, _⟩ => simp [DotDims.lhsIdx] <;> first | exact c2 | rfl

/-- The right operand's index there is `(b, c, q)`. -/
theorem rhsIdxN_eq (w : DotDims.WF ⟨3, ![B, M, K]⟩ ⟨3, ![B, K, N]⟩ ⟨3, ![B, M, N]⟩ [2] [1] [1] [2] [0] [0])
    (b : Fin B) (p : Fin M) (q : Fin N) (c : Fin K) :
    (recN w).rhsIdx (ix3 b p q) ((contrEquiv1 (recN w) K rfl rfl).symm c) = ix3 b c q := by
  have c2 := contrEquiv1_symm_val (recN w) K rfl rfl c
  funext ax; apply Fin.ext
  match ax with
  | ⟨0, _⟩ => simp [DotDims.rhsIdx] <;> first | rfl | exact c2
  | ⟨1, _⟩ => simp [DotDims.rhsIdx] <;> first | exact c2 | rfl
  | ⟨2, _⟩ => simp [DotDims.rhsIdx] <;> first | rfl | exact c2

/-- A `tpu.matmul` with these dimension numbers into the zero accumulator, at entry `(b, p, q)`. -/
theorem matmulN_zero_apply (w : DotDims.WF ⟨3, ![B, M, K]⟩ ⟨3, ![B, K, N]⟩ ⟨3, ![B, M, N]⟩ [2] [1] [1] [2] [0] [0])
    (prec : Option ContractPrecision) (L : FVec Ideal ⟨3, ![B, M, K]⟩ φ₁) (R : FVec Ideal ⟨3, ![B, K, N]⟩ φ₂)
    (b : Fin B) (p : Fin M) (q : Fin N) :
    matmul (recN w) prec L R (constant (F := Ideal) ⟨3, ![B, M, N]⟩ .f32 0x00000000#32) (ix3 b p q)
      = ∑ c : Fin K, L (ix3 b p c) * R (ix3 b c q) := by
  show FloatOps.matmul _ prec L R _ (ix3 b p q) = _
  rw [Ideal.matmul_constant_zero_apply, ← Equiv.sum_comp (contrEquiv1 (recN w) K rfl rfl).symm]
  refine Finset.sum_congr rfl fun c _ => ?_
  rw [lhsIdxN_eq, rhsIdxN_eq]

end Idealize.ShloMosaic.BatchProduct

end
-- ==== Proof.StageTwoBody.lean ====
/-
  The second stage's body at one entry of a tile.

  A tile is 512 query rows of one sequence against all 2048 key and value rows of that sequence. The body scales every
  query entry by 1/8, multiplies the scaled queries by the keys rows against rows (512 × 2048 scores), puts the literal
  zero where the mask word is 1, takes each row's maximum from −∞, turns each score into the weight
  exp (score − row maximum), sums each row of weights, multiplies the weights by the values rows against columns
  (512 × 64), and divides each row of that product by the row's sum. Entry (p, d) is therefore
  (Σ_kk w(p, kk) · v[kk, d]) / Σ_kk w(p, kk) with w(p, kk) = exp (score(p, kk) − max_kk score(p, kk)).

  The narrowing format changes before each product are the identity on extended reals.
-/
import proofs.«152495_j15874199126439_2_alg».proof.Proof.Gen.KernelIdeal.Skeleton
import proofs.«152495_j15874199126439_2_alg».proof.Proof.Spec
import proofs.«152495_j15874199126439_2_alg».proof.Proof.LibBatchProduct
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.StageTwo

open Cert.KernelIdeal Cert.KernelIdeal.Gen
open Idealize.ShloMosaic Idealize.ShloMosaic.ValueIdx

/-! ## Three layout reads, general in the extents -/

section Layout
variable {α : Type}

/-- An `[a, b]` array cast to `[a, b, 1]` reads, at `(i, j, 0)`, the operand at `(i, j)`: both sit at row-major
    position `i · b + j`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, b, 1]` array broadcast to `[a, b, c]` reads, at `(i, j, k)`, the operand at `(i, j, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- A reduced index `(i, j)` of an `[a, b, c]` array reduced over its last axis, with the coordinate `k` put back,
    is `(i, j, k)`. -/
theorem lift_last_ix3 {a b c : ℕ} (h : (⟨3, ![a, b, c]⟩ : Shape).Reduces [2] (⟨2, ![a, b]⟩ : Shape)) (i : Fin a) (j : Fin b)
    (k : Fin ((⟨3, ![a, b, c]⟩ : Shape).size 2)) : h.lift (ix2 i j) k = ix3 i j (⟨k.val, k.isLt⟩ : Fin c) := by
  funext ax; apply Fin.ext
  fin_cases ax <;> rfl

end Layout

/-! ## The body's values, stage by stage -/

/-- The score of tile row `p` against key position `kk`: the dot product of the query row, each entry scaled by the
    word `0x3E000000`, with the key row, masked. -/
def tileScore (x0 : Vec Ideal S1x512x64 .f32) (x1 : Vec Ideal S1x2048x64 .f32) (x3 : Vec Ideal S1x512x2048 .i32)
    (p : Fin 512) (kk : Fin 2048) : EReal :=
  Cert.Attn.masked (x3 (ix3 0 p kk))
    (∑ dd : Fin 64, (x0 (ix3 0 p dd) * Ideal.ofBits .f32 0x3E000000#32) * x1 (ix3 0 kk dd))

/-- The maximum of tile row `p`'s scores, folded from `−∞`. -/
def tileMax (x0 : Vec Ideal S1x512x64 .f32) (x1 : Vec Ideal S1x2048x64 .f32) (x3 : Vec Ideal S1x512x2048 .i32)
    (p : Fin 512) : EReal :=
  (Finset.univ : Finset (Fin 2048)).fold max (Ideal.ofBits .f32 0xFF800000#32) (fun kk => tileScore x0 x1 x3 p kk)

/-- The scaled query tile. -/
def qScaled (v0 : Vec Ideal S1x512x64 .f32) : FVec Ideal S1x512x64 .bf16 :=
  have v1 : FVec Ideal S1x512x64 .f32 := shapeCast S1x512x64 v0 shapeCasts_S1x512x64_S1x512x64
  have cst : Ideal .f32 := Scalar.ofBits .f32 0x3E000000#32
  have v2 : FVec Ideal S1x512x64 .f32 := broadcast S1x512x64 cst
  have v3 : FVec Ideal S1x512x64 .f32 := mulf v1 v2
  have v4 : FVec Ideal S1x512x64 .bf16 := truncf .bf16 v3 bitsLt_bf16_f32
  v4

/-- The product of the scaled query tile with the key tile, rows against rows. -/
def scoreRaw (v0 : Vec Ideal S1x512x64 .f32) (v5 : Vec Ideal S1x2048x64 .f32) : FVec Ideal S1x512x2048 .f32 :=
  have v6 : FVec Ideal S1x2048x64 .f32 := shapeCast S1x2048x64 v5 shapeCasts_S1x2048x64_S1x2048x64
  have v7 : FVec Ideal S1x2048x64 .bf16 := truncf .bf16 v6 bitsLt_bf16_f32
  have cst_5 : FVec Ideal S1x512x2048 .f32 := constant S1x512x2048 .f32 0x00000000#32
  have v8 : FVec Ideal S1x512x2048 .f32 := matmul dot_S1x512x64_S1x2048x64_S1x512x2048_2_2_1_1_0_0 none (qScaled v0) v7 cst_5
  v8

/-- The scores with the literal zero where the mask word is 1. -/
def scoreMasked (v0 : Vec Ideal S1x512x64 .f32) (v5 : Vec Ideal S1x2048x64 .f32) (v9 : Vec Ideal S1x512x2048 .i32) :
    FVec Ideal S1x512x2048 .f32 :=
  have v10 : IVec S1x512x2048 32 := broadcast S1x512x2048 1#32
  have v11 : IVec S1x512x2048 1 := cmpi .eq v9 v10
  have cst_9 : Ideal .f32 := Scalar.ofBits .f32 0x00000000#32
  have v12 : FVec Ideal S1x512x2048 .f32 := broadcast S1x512x2048 cst_9
  have v13 : FVec Ideal S1x512x2048 .f32 := select v11 v12 (scoreRaw v0 v5)
  v13

/-- The row maxima. -/
def rowMaxima (v0 : Vec Ideal S1x512x64 .f32) (v5 : Vec Ideal S1x2048x64 .f32) (v9 : Vec Ideal S1x512x2048 .i32) :
    FVec Ideal S1x512 .f32 :=
  multiReduction .maximumf [2] S1x512 (scoreMasked v0 v5 v9) 0xFF800000#32 reduces_S1x512x2048_S1x512 (.inl rfl) rfl

/-- The weights `exp (score − row maximum)`. -/
def weights (v0 : Vec Ideal S1x512x64 .f32) (v5 : Vec Ideal S1x2048x64 .f32) (v9 : Vec Ideal S1x512x2048 .i32) :
    FVec Ideal S1x512x2048 .f32 :=
  have v15 : FVec Ideal S1x512x1 .f32 := shapeCast S1x512x1 (rowMaxima v0 v5 v9) shapeCasts_S1x512_S1x512x1
  have v16 : FVec Ideal S1x512x2048 .f32 := broadcastTo S1x512x2048 v15 broadcasts_S1x512x1_S1x512x2048
  have v17 : FVec Ideal S1x512x2048 .f32 := subf (scoreMasked v0 v5 v9) v16
  have v18 : FVec Ideal S1x512x2048 .f32 := exp v17
  v18

/-- The row sums of the weights. -/
def rowSums (v0 : Vec Ideal S1x512x64 .f32) (v5 : Vec Ideal S1x2048x64 .f32) (v9 : Vec Ideal S1x512x2048 .i32) :
    FVec Ideal S1x512 .f32 :=
  multiReduction .add [2] S1x512 (weights v0 v5 v9) 0x00000000#32 reduces_S1x512x2048_S1x512 (.inl rfl) rfl

/-- The product of the weights with the value tile, rows against columns. -/
def weighted (v0 : Vec Ideal S1x512x64 .f32) (v5 : Vec Ideal S1x2048x64 .f32) (v9 : Vec Ideal S1x512x2048 .i32)
    (v21 : Vec Ideal S1x2048x64 .f32) : FVec Ideal S1x512x64 .f32 :=
  have v22 : FVec Ideal S1x2048x64 .f32 := shapeCast S1x2048x64 v21 shapeCasts_S1x2048x64_S1x2048x64
  have v23 : FVec Ideal S1x2048x64 .bf16 := truncf .bf16 v22 bitsLt_bf16_f32
  have v24 : FVec Ideal S1x512x2048 .bf16 := truncf .bf16 (weights v0 v5 v9) bitsLt_bf16_f32
  have cst_15 : FVec Ideal S1x512x64 .f32 := constant S1x512x64 .f32 0x00000000#32
  have v25 : FVec Ideal S1x512x64 .f32 := matmul dot_S1x512x2048_S1x2048x64_S1x512x64_2_1_1_2_0_0 none v24 v23 cst_15
  v25

/-- The body is the quotient of the weighted product by the row sums broadcast along the value columns: the stages
    above are its operations in order. -/
theorem pay_eq_stages (v0 : Vec Ideal S1x512x64 .f32) (v5 : Vec Ideal S1x2048x64 .f32) (v9 : Vec Ideal S1x512x2048 .i32)
    (v21 : Vec Ideal S1x2048x64 .f32) :
    k1_pay1 (F := Ideal) v0 v5 v9 v21
      = divf (weighted v0 v5 v9 v21)
          (broadcastTo S1x512x64 (shapeCast S1x512x1 (rowSums v0 v5 v9) shapeCasts_S1x512_S1x512x1)
            broadcasts_S1x512x1_S1x512x64) := rfl

/-! ## Each stage read at one entry -/

/-- The scaled query at `(p, dd)`: the query entry times the word `0x3E000000`. -/
theorem qScaled_apply (x0 : Vec Ideal S1x512x64 .f32) (p : Fin 512) (dd : Fin 64) :
    qScaled x0 (ix3 0 p dd) = x0 (ix3 0 p dd) * Ideal.ofBits .f32 0x3E000000#32 := by
  unfold qScaled
  rw [truncf_apply, mulf_apply, shapeCast_self, broadcast_apply]
  rfl

/-- The raw score at `(p, kk)`: the dot product over the 64 columns. -/
theorem scoreRaw_apply (x0 : Vec Ideal S1x512x64 .f32) (x1 : Vec Ideal S1x2048x64 .f32) (p : Fin 512) (kk : Fin 2048) :
    scoreRaw x0 x1 (ix3 0 p kk)
      = ∑ dd : Fin 64, (x0 (ix3 0 p dd) * Ideal.ofBits .f32 0x3E000000#32) * x1 (ix3 0 kk dd) := by
  unfold scoreRaw
  refine (BatchProduct.matmulT_zero_apply _ none _ _ (0 : Fin 1) p kk).trans ?_
  refine Finset.sum_congr rfl fun dd _ => ?_
  rw [qScaled_apply, truncf_apply, shapeCast_self]

/-- The masked score at `(p, kk)`. -/
theorem scoreMasked_apply (x0 : Vec Ideal S1x512x64 .f32) (x1 : Vec Ideal S1x2048x64 .f32) (x3 : Vec Ideal S1x512x2048 .i32)
    (p : Fin 512) (kk : Fin 2048) : scoreMasked x0 x1 x3 (ix3 0 p kk) = tileScore x0 x1 x3 p kk := by
  unfold scoreMasked tileScore Cert.Attn.masked
  rw [select_apply, scoreRaw_apply]
  rfl

/-- The row maximum at `p`: the fold of `max` from `−∞` over the 2048 key positions. -/
theorem rowMaxima_apply (x0 : Vec Ideal S1x512x64 .f32) (x1 : Vec Ideal S1x2048x64 .f32) (x3 : Vec Ideal S1x512x2048 .i32)
    (p : Fin 512) : rowMaxima x0 x1 x3 (ix2 0 p) = tileMax x0 x1 x3 p := by
  unfold rowMaxima tileMax
  refine (Ideal.multiReduction_maximumf_single (scoreMasked x0 x1 x3) 0xFF800000#32 reduces_S1x512x2048_S1x512
    (.inl rfl) rfl (ix2 0 p)).trans ?_
  have hf : (scoreMasked x0 x1 x3 ∘ reduces_S1x512x2048_S1x512.lift (ix2 0 p))
      = fun kk : Fin 2048 => tileScore x0 x1 x3 p kk :=
    funext fun k => (congrArg (scoreMasked x0 x1 x3) (lift_last_ix3 reduces_S1x512x2048_S1x512 0 p k)).trans
      (scoreMasked_apply x0 x1 x3 p ⟨k.val, k.isLt⟩)
  exact congrArg (fun f => Finset.fold max (Ideal.ofBits .f32 0xFF800000#32) f (Finset.univ : Finset (Fin 2048))) hf

/-- The weight at `(p, kk)`. -/
theorem weights_apply (x0 : Vec Ideal S1x512x64 .f32) (x1 : Vec Ideal S1x2048x64 .f32) (x3 : Vec Ideal S1x512x2048 .i32)
    (p : Fin 512) (kk : Fin 2048) :
    weights x0 x1 x3 (ix3 0 p kk) = Ideal.exp (tileScore x0 x1 x3 p kk - tileMax x0 x1 x3 p) := by
  unfold weights
  show Ideal.exp (subf (scoreMasked x0 x1 x3) _ (ix3 0 p kk)) = _
  rw [subf_apply, broadcastTo_ab1_abc_apply, shapeCast_ab_ab1_apply, scoreMasked_apply, rowMaxima_apply]

/-- The row sum at `p`. -/
theorem rowSums_apply (x0 : Vec Ideal S1x512x64 .f32) (x1 : Vec Ideal S1x2048x64 .f32) (x3 : Vec Ideal S1x512x2048 .i32)
    (p : Fin 512) :
    rowSums x0 x1 x3 (ix2 0 p) = ∑ kk : Fin 2048, Ideal.exp (tileScore x0 x1 x3 p kk - tileMax x0 x1 x3 p) := by
  unfold rowSums
  refine (Ideal.multiReduction_add_single (weights x0 x1 x3) 0x00000000#32 reduces_S1x512x2048_S1x512
    (.inl rfl) rfl (ix2 0 p)).trans ?_
  have hf : (fun k => weights x0 x1 x3 (reduces_S1x512x2048_S1x512.lift (ix2 0 p) k))
      = fun kk : Fin 2048 => Ideal.exp (tileScore x0 x1 x3 p kk - tileMax x0 x1 x3 p) :=
    funext fun k => (congrArg (weights x0 x1 x3) (lift_last_ix3 reduces_S1x512x2048_S1x512 0 p k)).trans
      (weights_apply x0 x1 x3 p ⟨k.val, k.isLt⟩)
  exact congrArg (fun f => ∑ kk : Fin 2048, f kk) hf

/-- The weighted product at `(p, d)`. -/
theorem weighted_apply (x0 : Vec Ideal S1x512x64 .f32) (x1 : Vec Ideal S1x2048x64 .f32) (x3 : Vec Ideal S1x512x2048 .i32)
    (x2 : Vec Ideal S1x2048x64 .f32) (p : Fin 512) (d : Fin 64) :
    weighted x0 x1 x3 x2 (ix3 0 p d)
      = ∑ kk : Fin 2048, Ideal.exp (tileScore x0 x1 x3 p kk - tileMax x0 x1 x3 p) * x2 (ix3 0 kk d) := by
  unfold weighted
  refine (BatchProduct.matmulN_zero_apply _ none _ _ (0 : Fin 1) p d).trans ?_
  refine Finset.sum_congr rfl fun kk _ => ?_
  rw [truncf_apply, truncf_apply, shapeCast_self, weights_apply]

/-- The second stage's body at entry `(p, d)` of a tile: the weighted mean of the value column `d` under the weights
    `exp (score − row maximum)`, the division by the row's sum taken last. -/
theorem attn_tile_apply (x0 : Vec Ideal S1x512x64 .f32) (x1 : Vec Ideal S1x2048x64 .f32) (x3 : Vec Ideal S1x512x2048 .i32)
    (x2 : Vec Ideal S1x2048x64 .f32) (p : Fin 512) (d : Fin 64) :
    k1_pay1 (F := Ideal) x0 x1 x3 x2 (ix3 0 p d)
      = Ideal.div (∑ kk : Fin 2048, Ideal.exp (tileScore x0 x1 x3 p kk - tileMax x0 x1 x3 p) * x2 (ix3 0 kk d))
                  (∑ kk : Fin 2048, Ideal.exp (tileScore x0 x1 x3 p kk - tileMax x0 x1 x3 p)) := by
  rw [pay_eq_stages, divf_apply, weighted_apply, broadcastTo_ab1_abc_apply, shapeCast_ab_ab1_apply, rowSums_apply]

end Cert.KernelIdeal.StageTwo

end
-- ==== Proof.StageTwo.lean ====
/-
  The second stage's output array after its run.

  The stage walks the 8 sequences and, inside each, the 2048 query positions in 4 tiles of 512. At tile `t` (sequence
  `t / 4`, query tile `t % 4`) it reads 512 query rows, all 2048 key rows and value rows of the sequence, and the
  512 × 2048 block of the mask, and writes 512 rows of the output. A query row's result depends only on that row, on the
  sequence's keys and values and on the row's mask entries, so the entry `(bi, p, d)` written by the tile holding row
  `p` is the attention formula at `(bi, p, d)`; the 32 tiles cover every row of every sequence.
-/
import proofs.«152495_j15874199126439_2_alg».proof.Proof.Gen.KernelIdeal.Frame
import proofs.«152495_j15874199126439_2_alg».proof.Proof.Spec
import proofs.«152495_j15874199126439_2_alg».proof.Proof.StageTwoBody
import Idealize.ShloMosaic.Lib.Pipeline.Value

set_option maxRecDepth 16384

noncomputable section

open scoped BigOperators

namespace Cert.KernelIdeal.StageTwo

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem hz3 : (![0, 0, 0] : Fin 3 → Nat) = fun _ => 0 := funext fun a => by fin_cases a <;> rfl

/-- The score of query row `p` against key row `kk` in sequence `bi`, from the stage's three float arrays and the mask:
    the dot product of the query row, each entry first multiplied by 1/8, with the key row; zero where the mask is 1. -/
def scoreOf (Q K : S8x2048x64.Idx → EReal) (Mk : S8x2048x2048.Idx → BitVec 32) (bi : Fin 8) (p kk : Fin 2048) : EReal :=
  Cert.Attn.masked (Mk (ix3 bi p kk)) (∑ dd : Fin 64, (Q (ix3 bi p dd) * Ideal.ofBits .f32 0x3E000000#32) * K (ix3 bi kk dd))

/-- The stage's result as one function of its four arrays. -/
def attnOf (Q K Vv : S8x2048x64.Idx → EReal) (Mk : S8x2048x2048.Idx → BitVec 32) : S8x2048x64.Idx → EReal :=
  Cert.Attn.attnLate (scoreOf Q K Mk) (fun bi kk d => Vv (ix3 bi kk d))

/-- The printed tile positions, decided over the 32 tiles: queries, mask and output sit at block (t / 4, t % 4, 0),
    keys and values at block (t / 4, 0, 0). -/
theorem idx_q : ∀ t : Fin cfg1.N, win1_0.index t (0 : Fin 3) = t.val / 4 ∧ win1_0.index t (1 : Fin 3) = t.val % 4 ∧ win1_0.index t (2 : Fin 3) = 0 :=
  (by decide +kernel : ∀ t : Fin grid1.N, _)
theorem idx_k : ∀ t : Fin cfg1.N, win1_1.index t (0 : Fin 3) = t.val / 4 ∧ win1_1.index t (1 : Fin 3) = 0 ∧ win1_1.index t (2 : Fin 3) = 0 :=
  (by decide +kernel : ∀ t : Fin grid1.N, _)
theorem idx_v : ∀ t : Fin cfg1.N, win1_2.index t (0 : Fin 3) = t.val / 4 ∧ win1_2.index t (1 : Fin 3) = 0 ∧ win1_2.index t (2 : Fin 3) = 0 :=
  (by decide +kernel : ∀ t : Fin grid1.N, _)
theorem idx_m : ∀ t : Fin cfg1.N, win1_3.index t (0 : Fin 3) = t.val / 4 ∧ win1_3.index t (1 : Fin 3) = t.val % 4 ∧ win1_3.index t (2 : Fin 3) = 0 :=
  (by decide +kernel : ∀ t : Fin grid1.N, _)
theorem idx_o : ∀ t : Fin cfg1.N, win1_4.index t (0 : Fin 3) = t.val / 4 ∧ win1_4.index t (1 : Fin 3) = t.val % 4 ∧ win1_4.index t (2 : Fin 3) = 0 :=
  (by decide +kernel : ∀ t : Fin grid1.N, _)

/-- Tile `t` works on sequence `t / 4`; its query row `p` is row `512·(t % 4) + p` of the sequence. -/
def seqOf (t : Fin cfg1.N) : Fin 8 := ⟨t.val / 4, by have := t.isLt; have h32 : cfg1.N = 32 := N_1; omega⟩
def rowOf (t : Fin cfg1.N) (p : Fin 512) : Fin 2048 := ⟨t.val % 4 * 512 + p.val, by have := p.isLt; omega⟩

/-- The tile's query rows, read at `(z, p, dd)`. -/
theorem read_q (c : Dev nD) (t : Fin cfg1.N) (z : Fin 1) (p : Fin 512) (dd : Fin 64) :
    iblk1 V c 0 t (ix3 z p dd) = V c main_v2 (ix3 (seqOf t) (rowOf t p) dd) := by
  show V c main_v2 (((cfg1.win 0).blk t).view.emb (ix3 z p dd)) = _
  refine congrArg (V c main_v2) (funext fun a => Fin.ext ?_)
  obtain ⟨e0, e1, e2⟩ := idx_q t
  have hz : z.val = 0 := by have := z.isLt; omega
  match a with
  | ⟨0, _⟩ => show win1_0.index t (0 : Fin 3) * 1 + 1 * z.val = t.val / 4; rw [e0]; omega
  | ⟨1, _⟩ => show win1_0.index t (1 : Fin 3) * 512 + 1 * p.val = t.val % 4 * 512 + p.val; rw [e1]; omega
  | ⟨2, _⟩ => show win1_0.index t (2 : Fin 3) * 64 + 1 * dd.val = dd.val; rw [e2]; omega

/-- The tile's key rows are all the sequence's key rows. -/
theorem read_k (c : Dev nD) (t : Fin cfg1.N) (z : Fin 1) (kk : Fin 2048) (dd : Fin 64) :
    iblk1 V c 1 t (ix3 z kk dd) = V c main_v3 (ix3 (seqOf t) kk dd) := by
  show V c main_v3 (((cfg1.win 1).blk t).view.emb (ix3 z kk dd)) = _
  refine congrArg (V c main_v3) (funext fun a => Fin.ext ?_)
  obtain ⟨e0, e1, e2⟩ := idx_k t
  have hz : z.val = 0 := by have := z.isLt; omega
  match a with
  | ⟨0, _⟩ => show win1_1.index t (0 : Fin 3) * 1 + 1 * z.val = t.val / 4; rw [e0]; omega
  | ⟨1, _⟩ => show win1_1.index t (1 : Fin 3) * 2048 + 1 * kk.val = kk.val; rw [e1]; omega
  | ⟨2, _⟩ => show win1_1.index t (2 : Fin 3) * 64 + 1 * dd.val = dd.val; rw [e2]; omega

/-- The tile's value rows are all the sequence's value rows. -/
theorem read_v (c : Dev nD) (t : Fin cfg1.N) (z : Fin 1) (kk : Fin 2048) (d : Fin 64) :
    iblk1 V c 2 t (ix3 z kk d) = V c main_v4 (ix3 (seqOf t) kk d) := by
  show V c main_v4 (((cfg1.win 2).blk t).view.emb (ix3 z kk d)) = _
  refine congrArg (V c main_v4) (funext fun a => Fin.ext ?_)
  obtain ⟨e0, e1, e2⟩ := idx_v t
  have hz : z.val = 0 := by have := z.isLt; omega
  match a with
  | ⟨0, _⟩ => show win1_2.index t (0 : Fin 3) * 1 + 1 * z.val = t.val / 4; rw [e0]; omega
  | ⟨1, _⟩ => show win1_2.index t (1 : Fin 3) * 2048 + 1 * kk.val = kk.val; rw [e1]; omega
  | ⟨2, _⟩ => show win1_2.index t (2 : Fin 3) * 64 + 1 * d.val = d.val; rw [e2]; omega

/-- The tile's mask block: the tile's query rows against all key positions. -/
theorem read_m (c : Dev nD) (t : Fin cfg1.N) (z : Fin 1) (p : Fin 512) (kk : Fin 2048) :
    iblk1 V c 3 t (ix3 z p kk) = V c main_arg1 (ix3 (seqOf t) (rowOf t p) kk) := by
  show V c main_arg1 (((cfg1.win 3).blk t).view.emb (ix3 z p kk)) = _
  refine congrArg (V c main_arg1) (funext fun a => Fin.ext ?_)
  obtain ⟨e0, e1, e2⟩ := idx_m t
  have hz : z.val = 0 := by have := z.isLt; omega
  match a with
  | ⟨0, _⟩ => show win1_3.index t (0 : Fin 3) * 1 + 1 * z.val = t.val / 4; rw [e0]; omega
  | ⟨1, _⟩ => show win1_3.index t (1 : Fin 3) * 512 + 1 * p.val = t.val % 4 * 512 + p.val; rw [e1]; omega
  | ⟨2, _⟩ => show win1_3.index t (2 : Fin 3) * 2048 + 1 * kk.val = kk.val; rw [e2]; omega

/-- The output tile `t` sits at sequence `t / 4`, rows `512·(t % 4) …`. -/
theorem emb_o (t : Fin cfg1.N) (z : Fin 1) (p : Fin 512) (d : Fin 64) :
    ((cfg1.win 4).blk t).view.emb (ix3 z p d) = ix3 (seqOf t) (rowOf t p) d := by
  funext a; apply Fin.ext
  obtain ⟨e0, e1, e2⟩ := idx_o t
  have hz : z.val = 0 := by have := z.isLt; omega
  match a with
  | ⟨0, _⟩ => show win1_4.index t (0 : Fin 3) * 1 + 1 * z.val = t.val / 4; rw [e0]; omega
  | ⟨1, _⟩ => show win1_4.index t (1 : Fin 3) * 512 + 1 * p.val = t.val % 4 * 512 + p.val; rw [e1]; omega
  | ⟨2, _⟩ => show win1_4.index t (2 : Fin 3) * 64 + 1 * d.val = d.val; rw [e2]; omega

/-- An entry of the output array is in tile `t` iff each coordinate is in the tile's range on its axis. -/
theorem mem_o (t : Fin cfg1.N) (i : S8x2048x64.Idx) :
    i ∈ ((cfg1.win 4).blk t).view.set ↔ ∀ a : Fin 3, win1_4.index t a * S1x512x64.size a ≤ (i a).val ∧ (i a).val < win1_4.index t a * S1x512x64.size a + S1x512x64.size a := by
  show i ∈ ((View.whole main_v5).slice (win1_4.rect t)).set ↔ _
  rw [View.set_slice_whole, Rect.mem_set_unit]
  exact Iff.rfl

/-- The 32 tiles cover the output: entry `(bi, p, d)` lies in tile `4·bi + p / 512`. -/
theorem cover_o (i : S8x2048x64.Idx) :
    ∃ t : Fin cfg1.N, (cfg1.win 4).flush t = true ∧ i ∈ ((cfg1.win 4).blk t).view.set := by
  have hi0 : (i 0).val < 8 := (i 0).isLt
  have hi1 : (i 1).val < 2048 := (i 1).isLt
  have hi2 : (i 2).val < 64 := (i 2).isLt
  have h32 : cfg1.N = 32 := N_1
  have ht : (i 0).val * 4 + (i 1).val / 512 < cfg1.N := by omega
  refine ⟨⟨(i 0).val * 4 + (i 1).val / 512, ht⟩, flush1_4 _, ?_⟩
  rw [mem_o]
  obtain ⟨e0, e1, e2⟩ := idx_o ⟨(i 0).val * 4 + (i 1).val / 512, ht⟩
  intro a
  match a with
  | ⟨0, _⟩ =>
    show win1_4.index ⟨(i 0).val * 4 + (i 1).val / 512, ht⟩ (0 : Fin 3) * 1 ≤ (i 0).val ∧ (i 0).val < win1_4.index ⟨(i 0).val * 4 + (i 1).val / 512, ht⟩ (0 : Fin 3) * 1 + 1
    rw [e0]; show ((i 0).val * 4 + (i 1).val / 512) / 4 * 1 ≤ (i 0).val ∧ (i 0).val < ((i 0).val * 4 + (i 1).val / 512) / 4 * 1 + 1; omega
  | ⟨1, _⟩ =>
    show win1_4.index ⟨(i 0).val * 4 + (i 1).val / 512, ht⟩ (1 : Fin 3) * 512 ≤ (i 1).val ∧ (i 1).val < win1_4.index ⟨(i 0).val * 4 + (i 1).val / 512, ht⟩ (1 : Fin 3) * 512 + 512
    rw [e1]; show ((i 0).val * 4 + (i 1).val / 512) % 4 * 512 ≤ (i 1).val ∧ (i 1).val < ((i 0).val * 4 + (i 1).val / 512) % 4 * 512 + 512; omega
  | ⟨2, _⟩ =>
    show win1_4.index ⟨(i 0).val * 4 + (i 1).val / 512, ht⟩ (2 : Fin 3) * 64 ≤ (i 2).val ∧ (i 2).val < win1_4.index ⟨(i 0).val * 4 + (i 1).val / 512, ht⟩ (2 : Fin 3) * 64 + 64
    rw [e2]; omega

/-- The tile's scores are the stage's scores at the tile's rows. -/
theorem tileScore_eq (c : Dev nD) (t : Fin cfg1.N) (p : Fin 512) (kk : Fin 2048) :
    tileScore (iblk1 V c 0 t) (iblk1 V c 1 t) (iblk1 V c 3 t) p kk
      = scoreOf (V c main_v2) (V c main_v3) (V c main_arg1) (seqOf t) (rowOf t p) kk := by
  unfold tileScore scoreOf
  rw [read_m]
  refine congrArg (Cert.Attn.masked _) (Finset.sum_congr rfl fun dd _ => ?_)
  rw [read_q, read_k]

/-- So the tile's row maximum is the stage's row maximum at that row. -/
theorem tileMax_eq (c : Dev nD) (t : Fin cfg1.N) (p : Fin 512) :
    tileMax (iblk1 V c 0 t) (iblk1 V c 1 t) (iblk1 V c 3 t) p
      = Cert.Attn.rowMax (scoreOf (V c main_v2) (V c main_v3) (V c main_arg1)) (seqOf t) (rowOf t p) := by
  unfold tileMax Cert.Attn.rowMax
  exact congrArg (fun f => Finset.fold max (Ideal.ofBits .f32 0xFF800000#32) f (Finset.univ : Finset (Fin 2048)))
    (funext fun kk => tileScore_eq V c t p kk)

/-- What tile `t` writes back is tile `t` of the stage's result function. -/
theorem flushed_o (c : Dev nD) (t : Fin cfg1.N) :
    (dat1 V c).flushed 4 t = ((cfg1.win 4).blk t).view.read (Elt Ideal)
      (attnOf (V c main_v2) (V c main_v3) (V c main_v4) (V c main_arg1)) := by
  show (cfg1.win 4).cut (grid1.coords t) ((dat1 V c).after 4 t) = _
  rw [after1_4]
  unfold out1_4
  rw [View.canon_unit_zero hz3]
  simp only [View.ld_unit_zero (S := S1x512x64) hz3, View.ld_unit_zero (S := S1x2048x64) hz3, View.ld_unit_zero (S := S1x512x2048) hz3]
  funext j
  obtain ⟨z, p, d, rfl⟩ : ∃ (z : Fin 1) (p : Fin 512) (d : Fin 64), j = ix3 z p d := ⟨j 0, j 1, j 2, eq_ix3 j⟩
  have hz : z = 0 := Fin.ext (by have := z.isLt; omega)
  subst hz
  show k1_pay1 (F := Ideal) (iblk1 V c 0 t) (iblk1 V c 1 t) (iblk1 V c 3 t) (iblk1 V c 2 t) (ix3 0 p d)
    = attnOf (V c main_v2) (V c main_v3) (V c main_v4) (V c main_arg1) (((cfg1.win 4).blk t).view.emb (ix3 0 p d))
  rw [emb_o]
  refine (attn_tile_apply _ _ _ _ p d).trans ?_
  show _ = Ideal.div
      (∑ kk : Fin 2048, Ideal.exp (scoreOf (V c main_v2) (V c main_v3) (V c main_arg1) (seqOf t) (rowOf t p) kk
          - Cert.Attn.rowMax (scoreOf (V c main_v2) (V c main_v3) (V c main_arg1)) (seqOf t) (rowOf t p)) * V c main_v4 (ix3 (seqOf t) kk d))
      (∑ kk : Fin 2048, Ideal.exp (scoreOf (V c main_v2) (V c main_v3) (V c main_arg1) (seqOf t) (rowOf t p) kk
          - Cert.Attn.rowMax (scoreOf (V c main_v2) (V c main_v3) (V c main_arg1)) (seqOf t) (rowOf t p)))
  rw [tileMax_eq]
  refine congrArg₂ Ideal.div (Finset.sum_congr rfl fun kk _ => ?_) (Finset.sum_congr rfl fun kk _ => ?_)
  · rw [tileScore_eq, read_v]
  · rw [tileScore_eq]

/-- THE ARRAY after the stage: the stage's result function of its four arrays. -/
theorem final_o (c : Dev nD) :
    (dat1 V c).arrAt 4 cfg1.N = attnOf (V c main_v2) (V c main_v3) (V c main_v4) (V c main_arg1) :=
  (dat1 V c).arrAt_eq_of_cover 4 _ (fun t _ => flushed_o V c t) cover_o

end Cert.KernelIdeal.StageTwo

end
-- ==== Proof.Reshapes.lean ====
/-
  The tiled program's host reshapes, read at an entry.

  Before the first stage the embeddings `[8, 2048, 1024]` are flattened to `[16384, 1024]`: row `r` is batch
  `r / 2048`, position `r % 2048`. After it each of the three projected arrays `[16384, 64]` is unflattened to
  `[8, 2048, 64]`: batch `bi`, position `s` is row `bi * 2048 + s`. The arrays no host operation writes are
  as they were.
-/
import proofs.«152495_j15874199126439_2_alg».proof.Proof.Gen.KernelIdeal.Frame
import Idealize.ShloMosaic.Lib.ValueIdx
import Idealize.ShloMosaic.Lib.Pipeline.Value
import Idealize.ShloMosaic.Lib.StableHlo.Run
import Idealize.ShloMosaic.Lib.ValueLayout

noncomputable section

namespace Cert.KernelIdeal.Reshapes

open Idealize.ShloMosaic Idealize.ShloMosaic.TcCoe Idealize.ShloMosaic.ValueIdx Idealize.ShloMosaic.StableHlo Idealize.SL.Sem
open Cert.KernelIdeal Cert.KernelIdeal.Gen

variable (m : (ℓ : Loc nD τ sig) → Buf (Elt Ideal) ℓ) (ρ : Dev nD → PrngReg) (c : Dev nD)

/-! ## Before the first stage -/

/-- The flattened embeddings are the embeddings' elements in row-major order. -/
theorem v0_fun : (V1 m ρ c main_v0 : S16384x1024.Idx → EReal)
    = shapeCast S16384x1024 (m ((c : Thread nD τ).loc main_arg0)) shapeCasts_S8x2048x1024_S16384x1024 := by
  dsimp only [V1, W1, hostOps0]
  after_results
  rfl

/-- An `[8, 2048, 1024]` array flattened to `[16384, 1024]`: row `r` is batch `r / 2048`, position `r % 2048`. -/
theorem flatten_apply (y : S8x2048x1024.Idx → EReal) (r : Fin 16384) (e : Fin 1024) :
    shapeCast S16384x1024 y shapeCasts_S8x2048x1024_S16384x1024 (ix2 r e)
      = y (ix3 (⟨r.val / 2048, by have := r.isLt; omega⟩ : Fin 8) (⟨r.val % 2048, by omega⟩ : Fin 2048) e) :=
  shapeCast_apply _ _ _ _ (by
    rw [Shape.rowMajor_val_three, Shape.rowMajor_val_two]
    show (r.val / 2048 * 2048 + r.val % 2048) * 1024 + e.val = r.val * 1024 + e.val
    omega)

/-- Row `r` of the flattened embeddings is batch `r / 2048`, position `r % 2048`. -/
theorem v0_apply (r : Fin 16384) (e : Fin 1024) :
    V1 m ρ c main_v0 (ix2 r e)
      = m ((c : Thread nD τ).loc main_arg0)
          (ix3 (⟨r.val / 2048, by have := r.isLt; omega⟩ : Fin 8) (⟨r.val % 2048, by omega⟩ : Fin 2048) e) := by
  show (V1 m ρ c main_v0 : S16384x1024.Idx → EReal) (ix2 r e) = _
  rw [v0_fun]
  exact flatten_apply _ r e

/-- The weights enter the first stage as launched. -/
theorem V1_arg2 : V1 m ρ c main_arg2 = m ((c : Thread nD τ).loc main_arg2) := by
  dsimp only [V1, W1, hostOps0]
  after_results

/-- The bias enters the first stage as launched. -/
theorem V1_arg3 : V1 m ρ c main_arg3 = m ((c : Thread nD τ).loc main_arg3) := by
  dsimp only [V1, W1, hostOps0]
  after_results

/-! ## Between the stages -/

/-- The unflattened query third is the first stage's first output in row-major order. -/
theorem v2_fun : (V3 m ρ c main_v2 : S8x2048x64.Idx → EReal)
    = shapeCast S8x2048x64 (W2 m ρ c (Proc.devRef .tc main_v1_0)) shapeCasts_S16384x64_S8x2048x64 := by
  dsimp only [V3, W3, hostOps1]
  after_results
  rfl

/-- The unflattened key third is the first stage's second output in row-major order. -/
theorem v3_fun : (V3 m ρ c main_v3 : S8x2048x64.Idx → EReal)
    = shapeCast S8x2048x64 (W2 m ρ c (Proc.devRef .tc main_v1_1)) shapeCasts_S16384x64_S8x2048x64 := by
  dsimp only [V3, W3, hostOps1]
  after_results
  rfl

/-- The unflattened value third is the first stage's third output in row-major order. -/
theorem v4_fun : (V3 m ρ c main_v4 : S8x2048x64.Idx → EReal)
    = shapeCast S8x2048x64 (W2 m ρ c (Proc.devRef .tc main_v1_2)) shapeCasts_S16384x64_S8x2048x64 := by
  dsimp only [V3, W3, hostOps1]
  after_results
  rfl

/-- A `[16384, 64]` array unflattened to `[8, 2048, 64]`: batch `bi`, position `s` is row `bi * 2048 + s`. -/
theorem unflatten_apply (y : S16384x64.Idx → EReal) (bi : Fin 8) (s : Fin 2048) (d : Fin 64) :
    shapeCast S8x2048x64 y shapeCasts_S16384x64_S8x2048x64 (ix3 bi s d)
      = y (ix2 (⟨bi.val * 2048 + s.val, by have := bi.isLt; have := s.isLt; omega⟩ : Fin 16384) d) :=
  shapeCast_apply _ _ _ _ (by
    rw [Shape.rowMajor_val_three, Shape.rowMajor_val_two]
    show (bi.val * 2048 + s.val) * 64 + d.val = (bi.val * 2048 + s.val) * 64 + d.val
    rfl)

/-- The query third at batch `bi`, position `s`. -/
theorem v2_apply (bi : Fin 8) (s : Fin 2048) (d : Fin 64) :
    V3 m ρ c main_v2 (ix3 bi s d)
      = W2 m ρ c (Proc.devRef .tc main_v1_0)
          (ix2 (⟨bi.val * 2048 + s.val, by have := bi.isLt; have := s.isLt; omega⟩ : Fin 16384) d) := by
  show (V3 m ρ c main_v2 : S8x2048x64.Idx → EReal) (ix3 bi s d) = _
  rw [v2_fun]
  exact unflatten_apply _ bi s d

/-- The key third at batch `bi`, position `s`. -/
theorem v3_apply (bi : Fin 8) (s : Fin 2048) (d : Fin 64) :
    V3 m ρ c main_v3 (ix3 bi s d)
      = W2 m ρ c (Proc.devRef .tc main_v1_1)
          (ix2 (⟨bi.val * 2048 + s.val, by have := bi.isLt; have := s.isLt; omega⟩ : Fin 16384) d) := by
  show (V3 m ρ c main_v3 : S8x2048x64.Idx → EReal) (ix3 bi s d) = _
  rw [v3_fun]
  exact unflatten_apply _ bi s d

/-- The value third at batch `bi`, position `s`. -/
theorem v4_apply (bi : Fin 8) (s : Fin 2048) (d : Fin 64) :
    V3 m ρ c main_v4 (ix3 bi s d)
      = W2 m ρ c (Proc.devRef .tc main_v1_2)
          (ix2 (⟨bi.val * 2048 + s.val, by have := bi.isLt; have := s.isLt; omega⟩ : Fin 16384) d) := by
  show (V3 m ρ c main_v4 : S8x2048x64.Idx → EReal) (ix3 bi s d) = _
  rw [v4_fun]
  exact unflatten_apply _ bi s d

/-- The mask enters the second stage as launched: nothing before the second stage writes it. -/
theorem V3_arg1 : V3 m ρ c main_arg1 = m ((c : Thread nD τ).loc main_arg1) :=
  calc W3 m ρ c (Proc.devRef .tc main_arg1)
    _ = W2 m ρ c (Proc.devRef .tc main_arg1) := by
          dsimp only [W3, hostOps1]
          after_results
    _ = W1 m ρ c (Proc.devRef .tc main_arg1) := W2_of_ne m ρ c main_arg1 (by decide)
    _ = m ((c : Thread nD τ).loc main_arg1) := by
          dsimp only [W1, hostOps0]
          after_results

end Cert.KernelIdeal.Reshapes

end
-- ==== Proof.KernelValue.lean ====
/-
  The tiled program's result is the tiled attention formula of its four arguments.

  Its result array is what the second stage's write-backs leave: the stage's result function of the three reshaped
  outputs of the first stage and of the mask argument. Each of those three arrays, read at (sequence `bi`, position
  `s`, column `d`), is the first stage's output at flattened row `2048·bi + s`, that is the affine map
  `Σ_e in[2048·bi + s, e] · W[e, o + d] + b[o + d]` of the flattened input — and the flattened input at row `2048·bi + s` is
  the input at `(bi, s)`. So the three arrays are the query, key and value thirds of the projection, and the stage's
  result function of them is the formula.
-/
import proofs.«152495_j15874199126439_2_alg».proof.Proof.KernelRun
import proofs.«152495_j15874199126439_2_alg».proof.Proof.StageOne
import proofs.«152495_j15874199126439_2_alg».proof.Proof.StageTwo
import proofs.«152495_j15874199126439_2_alg».proof.Proof.Reshapes
import proofs.«152495_j15874199126439_2_alg».proof.Proof.Spec

set_option maxRecDepth 16384

noncomputable section

open scoped BigOperators

namespace Cert.KernelIdeal.Whole

open Cert.KernelIdeal Cert.KernelIdeal.Gen
open Idealize.ShloMosaic Idealize.ShloMosaic.TcCoe Idealize.ShloMosaic.ValueIdx
open Idealize.SL Idealize.SL.Sem

variable (m : (ℓ : Loc nD τ sig) → Buf (Elt Ideal) ℓ) (ρ : Dev nD → PrngReg) (c : Dev nD)

/-- The row-by-row affine image at an entry, the column written as one index. -/
theorem rowAffine_apply (X : S16384x1024.Idx → EReal) (W : S1024x192.Idx → EReal) (b : S192.Idx → EReal) (o : Nat) (ho : o + 64 ≤ 192)
    (r : Fin 16384) (d : Fin 64) (j : Fin 192) (hj : j.val = o + d.val) :
    StageOne.rowAffine X W b o ho (ix2 r d) = (∑ e : Fin 1024, X (ix2 r e) * W (ix2 e j)) + b (ix1 j) := by
  have hj' : (⟨o + d.val, by have := d.isLt; omega⟩ : Fin 192) = j := Fin.ext hj.symm
  show (∑ e : Fin 1024, X (ix2 (⟨r.val, r.isLt⟩ : Fin 16384) e) * W (ix2 e (⟨o + d.val, _⟩ : Fin 192))) + b (ix1 (⟨o + d.val, _⟩ : Fin 192)) = _
  rw [hj']

/-- The first stage's affine image at flattened row `2048·bi + s`, column offset `o`, is the projection at
    `(bi, s)`, column `o + d`. -/
theorem affine_entry (o : Nat) (ho : o + 64 ≤ 192) (bi : Fin 8) (s : Fin 2048) (d : Fin 64) (j : Fin 192) (hj : j.val = o + d.val) :
    StageOne.rowAffine (V1 m ρ c main_v0) (V1 m ρ c main_arg2) (V1 m ρ c main_arg3) o ho
        (ix2 (⟨bi.val * 2048 + s.val, by have := bi.isLt; have := s.isLt; omega⟩ : Fin 16384) d)
      = Cert.Attn.proj (m ((c : Thread nD τ).loc main_arg0) : Cert.Attn.XArr) (m ((c : Thread nD τ).loc main_arg2) : Cert.Attn.WArr) (m ((c : Thread nD τ).loc main_arg3) : Cert.Attn.BArr) bi s j := by
  have hb : (⟨(bi.val * 2048 + s.val) / 2048, by have := bi.isLt; have := s.isLt; omega⟩ : Fin 8) = bi :=
    Fin.ext (by have := s.isLt; show (bi.val * 2048 + s.val) / 2048 = bi.val; omega)
  have hs : (⟨(bi.val * 2048 + s.val) % 2048, by omega⟩ : Fin 2048) = s :=
    Fin.ext (by have := s.isLt; show (bi.val * 2048 + s.val) % 2048 = s.val; omega)
  rw [rowAffine_apply _ _ _ o ho _ d j hj]
  unfold Cert.Attn.proj
  rw [Reshapes.V1_arg2, Reshapes.V1_arg3]
  refine congrArg (· + _) (Finset.sum_congr rfl fun e _ => ?_)
  rw [Reshapes.v0_apply, hb, hs]

/-- The reshaped first output is the query third of the projection. -/
theorem q_entry (bi : Fin 8) (s : Fin 2048) (d : Fin 64) :
    V3 m ρ c main_v2 (ix3 bi s d) = Cert.Attn.proj (m ((c : Thread nD τ).loc main_arg0) : Cert.Attn.XArr) (m ((c : Thread nD τ).loc main_arg2) : Cert.Attn.WArr) (m ((c : Thread nD τ).loc main_arg3) : Cert.Attn.BArr) bi s (Cert.Attn.colQ d) := by
  rw [Reshapes.v2_apply, show W2 m ρ c (Proc.devRef .tc main_v1_0) = _ from W2_arr m ρ c 3, StageOne.final_q]
  exact affine_entry m ρ c 0 (by omega) bi s d (Cert.Attn.colQ d) (Nat.zero_add _).symm

/-- The reshaped second output is the key third. -/
theorem k_entry (bi : Fin 8) (s : Fin 2048) (d : Fin 64) :
    V3 m ρ c main_v3 (ix3 bi s d) = Cert.Attn.proj (m ((c : Thread nD τ).loc main_arg0) : Cert.Attn.XArr) (m ((c : Thread nD τ).loc main_arg2) : Cert.Attn.WArr) (m ((c : Thread nD τ).loc main_arg3) : Cert.Attn.BArr) bi s (Cert.Attn.colK d) := by
  rw [Reshapes.v3_apply, show W2 m ρ c (Proc.devRef .tc main_v1_1) = _ from W2_arr m ρ c 4, StageOne.final_k]
  exact affine_entry m ρ c 64 (by omega) bi s d (Cert.Attn.colK d) rfl

/-- The reshaped third output is the value third. -/
theorem v_entry (bi : Fin 8) (s : Fin 2048) (d : Fin 64) :
    V3 m ρ c main_v4 (ix3 bi s d) = Cert.Attn.proj (m ((c : Thread nD τ).loc main_arg0) : Cert.Attn.XArr) (m ((c : Thread nD τ).loc main_arg2) : Cert.Attn.WArr) (m ((c : Thread nD τ).loc main_arg3) : Cert.Attn.BArr) bi s (Cert.Attn.colV d) := by
  rw [Reshapes.v4_apply, show W2 m ρ c (Proc.devRef .tc main_v1_2) = _ from W2_arr m ρ c 5, StageOne.final_v]
  exact affine_entry m ρ c 128 (by omega) bi s d (Cert.Attn.colV d) rfl

/-- THE RESULT ARRAY at the end of the run is the tiled formula of the launch arguments. -/
theorem result_eq : W4 m ρ c (Proc.devRef .tc main_v5) = Cert.Attn.tiled (m ((c : Thread nD τ).loc main_arg0) : Cert.Attn.XArr) (m ((c : Thread nD τ).loc main_arg1) : Cert.Attn.MArr) (m ((c : Thread nD τ).loc main_arg2) : Cert.Attn.WArr) (m ((c : Thread nD τ).loc main_arg3) : Cert.Attn.BArr) := by
  rw [RunValue.W4_result, StageTwo.final_o]
  unfold StageTwo.attnOf Cert.Attn.tiled
  refine congrArg₂ Cert.Attn.attnLate (funext fun bi => funext fun p => funext fun kk => ?_)
    (funext fun bi => funext fun kk => funext fun d => ?_)
  · unfold StageTwo.scoreOf Cert.Attn.scoreQ
    rw [Reshapes.V3_arg1]
    refine congrArg (Cert.Attn.masked _) (Finset.sum_congr rfl fun dd _ => ?_)
    rw [q_entry, k_entry]
  · exact v_entry m ρ c bi kk d

/-- THE RUN: every weakly fair execution terminates without a fault, the result array at the tiled formula of the
    arguments and the arguments as launched. -/
theorem run : θ_run defs (onTc (τ := τ) (main (F := Ideal))) ⟨m, fun _ => 0, ρ⟩ (fun r => ∀ c : Dev nD,
      r.2.mem ((c.tc : Thread nD τ).loc main_v5) = Cert.Attn.tiled (m ((c.tc : Thread nD τ).loc main_arg0)) (m ((c.tc : Thread nD τ).loc main_arg1))
          (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨(h c).1.trans (result_eq m ρ c), (h c).2⟩) (RunValue.run_named m ρ)

end Cert.KernelIdeal.Whole

end
-- ==== Proof.lean ====
/-
  One attention head, computed two ways, gives one result at the extended reals.

  The tiled program projects the flattened input to queries, keys and values tile by tile, then, per tile of 512
  query rows, scores the rows against all keys of their sequence (each query entry first multiplied by 1/8), zeroes
  the masked scores, exponentiates against the row maximum, multiplies by the values and divides by the row sum last.
  The whole-array program projects once, multiplies the finished dot products by 1 / √64, and divides every weight
  by the row sum before multiplying by the values. On finite inputs every intermediate number is a real, the row sum
  is a positive real, and the two results are the same real: 1/8 = 1 / √64 moves across the dot product, and the
  division by the row sum moves across the weighted sum of values.

  Modules: Spec (both formulas), Bridge (they agree on finite inputs), RefRead (the whole-array program's result is
  the second formula), FiniteArgs (the precondition makes the inputs real), StageOneBody / StageOne and
  StageTwoBody / StageTwo (what each tiled stage leaves in its output arrays), Reshapes (the reshapes between them),
  KernelRun (the tiled program's run with its result named), KernelValue (the tiled program's result is the first
  formula).
-/
import proofs.«152495_j15874199126439_2_alg».proof.Defs
import proofs.«152495_j15874199126439_2_alg».proof.Proof.Gen.Kernel
import proofs.«152495_j15874199126439_2_alg».proof.Proof.Gen.Kernel.Skeleton
import proofs.«152495_j15874199126439_2_alg».proof.Proof.Gen.Kernel.Launch
import proofs.«152495_j15874199126439_2_alg».proof.Proof.Gen.Kernel.Points
import proofs.«152495_j15874199126439_2_alg».proof.Proof.Gen.Kernel.Frame
import proofs.«152495_j15874199126439_2_alg».proof.Proof.Gen.KernelIdeal
import proofs.«152495_j15874199126439_2_alg».proof.Proof.Gen.KernelIdeal.Skeleton
import proofs.«152495_j15874199126439_2_alg».proof.Proof.Gen.KernelIdeal.Launch
import proofs.«152495_j15874199126439_2_alg».proof.Proof.Gen.KernelIdeal.Points
import proofs.«152495_j15874199126439_2_alg».proof.Proof.Gen.KernelIdeal.Frame
import proofs.«152495_j15874199126439_2_alg».proof.Proof.Gen.ReferenceIdeal
import proofs.«152495_j15874199126439_2_alg».proof.Proof.Gen.Pre_finite_inputs
import proofs.«152495_j15874199126439_2_alg».proof.Proof.Gen.ReferenceIdeal.Run
import proofs.«152495_j15874199126439_2_alg».proof.Proof.Gen.ReferenceIdeal.Read
import proofs.«152495_j15874199126439_2_alg».proof.Proof.Bridge
import proofs.«152495_j15874199126439_2_alg».proof.Proof.RefRead
import proofs.«152495_j15874199126439_2_alg».proof.Proof.FiniteArgs
import proofs.«152495_j15874199126439_2_alg».proof.Proof.KernelValue
import Idealize.ShloMosaic.Adequacy
import Idealize.ShloMosaic.Init

noncomputable section

namespace Cert.Proof

open Idealize.ShloMosaic Idealize.ShloMosaic.TcCoe Idealize.SL.Sem

/-- The word-level program runs and keeps its arguments. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The whole-array program runs and keeps its arguments: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs end at the tiled formula of the arguments: the tiled program by its run, the whole-array program because
    its own formula equals the tiled one on finite inputs. -/
theorem algebraic : Cert.algebraic_KernelIdeal_ReferenceIdeal := by
  intro m ρ m' ρ' hpre hagree
  refine ⟨fun c => Cert.Attn.tiled
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.KernelIdeal.Whole.run m ρ, ?_⟩
  refine (θ_run Cert.ReferenceIdeal.defs _ _).mono (fun r h c => ⟨?_, (h c).2⟩)
    (Cert.ReferenceIdeal.Value.run (F := Ideal) m' ρ')
  obtain ⟨hx, hW, hb⟩ := Cert.Attn.Finite.args_real m hpre c
  rw [(h c).1, Cert.ReferenceIdeal.Read.val_main_v26_eq, Cert.Attn.Ref.ref_eq,
    (hagree c).1, (hagree c).2.1, (hagree c).2.2.1, (hagree c).2.2.2]
  exact (Cert.Attn.tiled_eq_whole _ _ _ _ hx hW hb).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
